-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S127x2048 : Shape := ⟨2, ![127, 2048]⟩
abbrev S127 : Shape := ⟨1, ![127]⟩
abbrev S128x1000 : Shape := ⟨2, ![128, 1000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S127x2048 : S_.BroadcastsInDim S127x2048 (![] : Fin 0 → Fin S127x2048.rank)
  reducesTo_S127x2048_S_d0_1 : S127x2048.ReducesTo [0, 1] S_
  bcast_S_S127 : S_.BroadcastsInDim S127 (![] : Fin 0 → Fin S127.rank)
  reducesTo_S127_S_d0 : S127.ReducesTo [0] S_
  bcast_S_S128x1000 : S_.BroadcastsInDim S128x1000 (![] : Fin 0 → Fin S128x1000.rank)
  reducesTo_S128x1000_S_d0_1 : S128x1000.ReducesTo [0, 1] S_

variable [Facts]

def fn_part1 {F : FTy → Type} [FloatOps F] (main_v13 : IVec S_ 1) (main_v16 : IVec S128x1000 1) : IVec S_ 1 :=
  let main_c_5 : IVec S_ 1 := constantI S_ 1 1#1
  let main_v17 : IVec S_ 1 := (fun x v => Host.reduce IntOp.andi x v reducesTo_S128x1000_S_d0_1 h_S_) main_v16 main_c_5
  let main_v18 : IVec S_ 1 := andi main_v13 main_v17
  main_v18

def fn {F : FTy → Type} [FloatOps F] (main_arg0 : FVec F S8192x2048 .f32) (main_arg1 : FVec F S127x2048 .f32) (main_arg2 : FVec F S127 .f32) (main_arg3 : FVec F S128x1000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S127x2048 .f32 := Host.absf main_arg1
  let main_cst_0 : FVec F S_ .f32 := constant S_ .f32 0x7F800000#32
  let main_v5 : FVec F S127x2048 .f32 := broadcastInDim S127x2048 ![] bcast_S_S127x2048 main_cst_0
  let main_v6 : IVec S127x2048 1 := cmpf .olt main_v4 main_v5
  let main_c_1 : IVec S_ 1 := constantI S_ 1 1#1
  let main_v7 : IVec S_ 1 := (fun x v => Host.reduce IntOp.andi x v reducesTo_S127x2048_S_d0_1 h_S_) main_v6 main_c_1
  let main_v8 : IVec S_ 1 := andi main_v3 main_v7
  let main_v9 : FVec F S127 .f32 := Host.absf main_arg2
  let main_cst_2 : FVec F S_ .f32 := constant S_ .f32 0x7F800000#32
  let main_v10 : FVec F S127 .f32 := broadcastInDim S127 ![] bcast_S_S127 main_cst_2
  let main_v11 : IVec S127 1 := cmpf .olt main_v9 main_v10
  let main_c_3 : IVec S_ 1 := constantI S_ 1 1#1
  let main_v12 : IVec S_ 1 := (fun x v => Host.reduce IntOp.andi x v reducesTo_S127_S_d0 h_S_) main_v11 main_c_3
  let main_v13 : IVec S_ 1 := andi main_v8 main_v12
  let main_v14 : FVec F S128x1000 .f32 := Host.absf main_arg3
  let main_cst_4 : FVec F S_ .f32 := constant S_ .f32 0x7F800000#32
  let main_v15 : FVec F S128x1000 .f32 := broadcastInDim S128x1000 ![] bcast_S_S128x1000 main_cst_4
  let main_v16 : IVec S128x1000 1 := cmpf .olt main_v14 main_v15
  fn_part1 (F := F) main_v13 main_v16
-- ==== Kernel.lean ====
abbrev S8192x2048 : Shape := ⟨2, ![8192, 2048]⟩
abbrev S127x2048 : Shape := ⟨2, ![127, 2048]⟩
abbrev S127 : Shape := ⟨1, ![127]⟩
abbrev S128x1000 : Shape := ⟨2, ![128, 1000]⟩
abbrev S1x127 : Shape := ⟨2, ![1, 127]⟩
abbrev S_ : Shape := ⟨0, ![]⟩
abbrev S128 : Shape := ⟨1, ![128]⟩
abbrev S128x1 : Shape := ⟨2, ![128, 1]⟩
abbrev S8192x1000 : Shape := ⟨2, ![8192, 1000]⟩
abbrev S1024x2048 : Shape := ⟨2, ![1024, 2048]⟩
abbrev S1024x1000 : Shape := ⟨2, ![1024, 1000]⟩
abbrev S2048x127 : Shape := ⟨2, ![2048, 127]⟩
abbrev S1024x127 : Shape := ⟨2, ![1024, 127]⟩
abbrev S1024x1 : Shape := ⟨2, ![1024, 1]⟩
abbrev S1024x1x1 : Shape := ⟨3, ![1024, 1, 1]⟩
abbrev S1024x1x2 : Shape := ⟨3, ![1024, 1, 2]⟩
abbrev S1024x2 : Shape := ⟨2, ![1024, 2]⟩
abbrev S1024x2x1 : Shape := ⟨3, ![1024, 2, 1]⟩
abbrev S1024x2x2 : Shape := ⟨3, ![1024, 2, 2]⟩
abbrev S1024x4 : Shape := ⟨2, ![1024, 4]⟩
abbrev S1024x4x1 : Shape := ⟨3, ![1024, 4, 1]⟩
abbrev S1024x4x2 : Shape := ⟨3, ![1024, 4, 2]⟩
abbrev S1024x8 : Shape := ⟨2, ![1024, 8]⟩
abbrev S1024x8x1 : Shape := ⟨3, ![1024, 8, 1]⟩
abbrev S1024x8x2 : Shape := ⟨3, ![1024, 8, 2]⟩
abbrev S1024x16 : Shape := ⟨2, ![1024, 16]⟩
abbrev S1024x16x1 : Shape := ⟨3, ![1024, 16, 1]⟩
abbrev S1024x16x2 : Shape := ⟨3, ![1024, 16, 2]⟩
abbrev S1024x32 : Shape := ⟨2, ![1024, 32]⟩
abbrev S1024x32x1 : Shape := ⟨3, ![1024, 32, 1]⟩
abbrev S1024x32x2 : Shape := ⟨3, ![1024, 32, 2]⟩
abbrev S1024x64 : Shape := ⟨2, ![1024, 64]⟩
abbrev S1024x64x1 : Shape := ⟨3, ![1024, 64, 1]⟩
abbrev S1024x64x2 : Shape := ⟨3, ![1024, 64, 2]⟩
abbrev S1024x128 : Shape := ⟨2, ![1024, 128]⟩

abbrev nBuf : Space → Nat
  | .hbm => 22
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S127x2048, .f32⟩
  | .hbm, ⟨2, _⟩ => ⟨S127, .f32⟩
  | .hbm, ⟨3, _⟩ => ⟨S128x1000, .f32⟩
  | .hbm, ⟨4, _⟩ => ⟨S1x127, .f32⟩
  | .hbm, ⟨5, _⟩ => ⟨S127x2048, .bf16⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S128x1000, .f32⟩
  | .hbm, ⟨13, _⟩ => ⟨S128x1000, .f32⟩
  | .hbm, ⟨14, _⟩ => ⟨S128x1000, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S128x1000, .f32⟩
  | .hbm, ⟨19, _⟩ => ⟨S128x1000, .f32⟩
  | .hbm, ⟨20, _⟩ => ⟨S128x1000, .bf16⟩
  | .hbm, ⟨21, _⟩ => ⟨S8192x1000, .f32⟩
  | .local _ .vmem, ⟨0, _⟩ => ⟨S1024x2048, .f32⟩
  | .local _ .vmem, ⟨1, _⟩ => ⟨S1024x2048, .f32⟩
  | .local _ .vmem, ⟨2, _⟩ => ⟨S127x2048, .bf16⟩
  | .local _ .vmem, ⟨3, _⟩ => ⟨S1x127, .f32⟩
  | .local _ .vmem, ⟨4, _⟩ => ⟨S128x1000, .bf16⟩
  | .local _ .vmem, ⟨5, _⟩ => ⟨S1024x1000, .f32⟩
  | .local _ .vmem, ⟨6, _⟩ => ⟨S1024x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S127x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x127 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S127_S1x127 : S127.ShapeCasts S1x127
  bitsLt_bf16_f32 : FTy.bits .bf16 < FTy.bits .f32
  reducesTo_S128x1000_S128_d1 : S128x1000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x1000_0_1 : S128x1.BroadcastsInDim S128x1000 (![0, 1] : Fin 2 → Fin S128x1000.rank)
  inb_S1024x2048_S1024x2048_0_0 : ∀ a, (![0, 0] : Fin 2 → Nat) a + S1024x2048.size a ≤ S1024x2048.size a
  h_S1024x2048 : 0 < S1024x2048.numel
  inb_S127x2048_S127x2048_0_0 : ∀ a, (![0, 0] : Fin 2 → Nat) a + S127x2048.size a ≤ S127x2048.size a
  h_S127x2048 : 0 < S127x2048.numel
  shapeCasts_S127x2048_S127x2048 : S127x2048.ShapeCasts S127x2048
  inb_S1x127_S1x127_0_0 : ∀ a, (![0, 0] : Fin 2 → Nat) a + S1x127.size a ≤ S1x127.size a
  h_S1x127 : 0 < S1x127.numel
  shapeCasts_S1x127_S1x127 : S1x127.ShapeCasts S1x127
  inb_S128x1000_S128x1000_0_0 : ∀ a, (![0, 0] : Fin 2 → Nat) a + S128x1000.size a ≤ S128x1000.size a
  h_S128x1000 : 0 < S128x1000.numel
  shapeCasts_S128x1000_S128x1000 : S128x1000.ShapeCasts S128x1000
  transposes_S127x2048_p1_0_S2048x127 : S127x2048.Transposes [1, 0] S2048x127
  broadcasts_S1x127_S1024x127 : S1x127.Broadcasts S1024x127
  slices_S1024x127_o0_0_S1024x1 : S1024x127.Slices ![0, 0] S1024x1
  shapeCasts_S1024x1_S1024x1x1 : S1024x1.ShapeCasts S1024x1x1
  concatenates_S1024x1x1_S1024x1x1_S1024x1x2_d2 : Shape.Concatenates [S1024x1x1, S1024x1x1] S1024x1x2 2
  shapeCasts_S1024x1x2_S1024x2 : S1024x1x2.ShapeCasts S1024x2
  slices_S1024x127_o0_1_S1024x2 : S1024x127.Slices ![0, 1] S1024x2
  shapeCasts_S1024x2_S1024x2x1 : S1024x2.ShapeCasts S1024x2x1
  concatenates_S1024x2x1_S1024x2x1_S1024x2x2_d2 : Shape.Concatenates [S1024x2x1, S1024x2x1] S1024x2x2 2
  shapeCasts_S1024x2x2_S1024x4 : S1024x2x2.ShapeCasts S1024x4
  slices_S1024x127_o0_3_S1024x4 : S1024x127.Slices ![0, 3] S1024x4
  shapeCasts_S1024x4_S1024x4x1 : S1024x4.ShapeCasts S1024x4x1
  concatenates_S1024x4x1_S1024x4x1_S1024x4x2_d2 : Shape.Concatenates [S1024x4x1, S1024x4x1] S1024x4x2 2
  shapeCasts_S1024x4x2_S1024x8 : S1024x4x2.ShapeCasts S1024x8
  slices_S1024x127_o0_7_S1024x8 : S1024x127.Slices ![0, 7] S1024x8
  shapeCasts_S1024x8_S1024x8x1 : S1024x8.ShapeCasts S1024x8x1
  concatenates_S1024x8x1_S1024x8x1_S1024x8x2_d2 : Shape.Concatenates [S1024x8x1, S1024x8x1] S1024x8x2 2
  shapeCasts_S1024x8x2_S1024x16 : S1024x8x2.ShapeCasts S1024x16
  slices_S1024x127_o0_15_S1024x16 : S1024x127.Slices ![0, 15] S1024x16
  shapeCasts_S1024x16_S1024x16x1 : S1024x16.ShapeCasts S1024x16x1
  concatenates_S1024x16x1_S1024x16x1_S1024x16x2_d2 : Shape.Concatenates [S1024x16x1, S1024x16x1] S1024x16x2 2
  shapeCasts_S1024x16x2_S1024x32 : S1024x16x2.ShapeCasts S1024x32
  slices_S1024x127_o0_31_S1024x32 : S1024x127.Slices ![0, 31] S1024x32
  shapeCasts_S1024x32_S1024x32x1 : S1024x32.ShapeCasts S1024x32x1
  concatenates_S1024x32x1_S1024x32x1_S1024x32x2_d2 : Shape.Concatenates [S1024x32x1, S1024x32x1] S1024x32x2 2
  shapeCasts_S1024x32x2_S1024x64 : S1024x32x2.ShapeCasts S1024x64
  slices_S1024x127_o0_63_S1024x64 : S1024x127.Slices ![0, 63] S1024x64
  shapeCasts_S1024x64_S1024x64x1 : S1024x64.ShapeCasts S1024x64x1
  concatenates_S1024x64x1_S1024x64x1_S1024x64x2_d2 : Shape.Concatenates [S1024x64x1, S1024x64x1] S1024x64x2 2
  shapeCasts_S1024x64x2_S1024x128 : S1024x64x2.ShapeCasts S1024x128
  inb_S1024x1000_S1024x1000_0_0 : ∀ a, (![0, 0] : Fin 2 → Nat) a + S1024x1000.size a ≤ S1024x1000.size a
  h_S1024x1000 : 0 < S1024x1000.numel
  dot_S1024x2048_S2048x127_S1024x127_1_0_0_1_n_n_wf : DotDims.WF S1024x2048 S2048x127 S1024x127 [1] [0] [0] [1] [] []
  dot_S1024x128_S128x1000_S1024x1000_1_0_0_1_n_n_wf : DotDims.WF S1024x128 S128x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S127x2048.size a ≤ S127x2048.size a
  hwx0_1 : ∀ i : grid0.Coords, EltTy.bits .bf16 = 32 ∨ (Rect.block (s := S127x2048) S127x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x127.size a ≤ S1x127.size a
  hwx0_2 : ∀ i : grid0.Coords, EltTy.bits .f32 = 32 ∨ (Rect.block (s := S1x127) S1x127.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1000.size a ≤ S128x1000.size a
  hwx0_3 : ∀ i : grid0.Coords, EltTy.bits .bf16 = 32 ∨ (Rect.block (s := S128x1000) S128x1000.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S8192x1000.size a
  hwx0_4 : ∀ i : grid0.Coords, EltTy.bits .f32 = 32 ∨ (Rect.block (s := S8192x1000) S1024x1000.size (cc0_transform_4 i) (hinb0_4 i)).WholeWords (EltTy.packing .f32)

variable [Facts₀]

def dot_S1024x2048_S2048x127_S1024x127_1_0_0_1_n_n : DotDims S1024x2048 S2048x127 S1024x127 where
  lhsContracting := [1]
  rhsContracting := [0]
  lhsNonContracting := [0]
  rhsNonContracting := [1]
  lhsBatch := []
  rhsBatch := []
  wf := dot_S1024x2048_S2048x127_S1024x127_1_0_0_1_n_n_wf
def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S127x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x127.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S127x2048 : Shape := ⟨2, ![127, 2048]⟩
abbrev S127 : Shape := ⟨1, ![127]⟩
abbrev S128x1000 : Shape := ⟨2, ![128, 1000]⟩
abbrev S2048x127 : Shape := ⟨2, ![2048, 127]⟩
abbrev S8192x127 : Shape := ⟨2, ![8192, 127]⟩
abbrev S1x127 : Shape := ⟨2, ![1, 127]⟩
abbrev S_ : Shape := ⟨0, ![]⟩
abbrev S8192x1 : Shape := ⟨2, ![8192, 1]⟩
abbrev S8192x1x1 : Shape := ⟨3, ![8192, 1, 1]⟩
abbrev S8192x1x2 : Shape := ⟨3, ![8192, 1, 2]⟩
abbrev S8192x2 : Shape := ⟨2, ![8192, 2]⟩
abbrev S8192x2x1 : Shape := ⟨3, ![8192, 2, 1]⟩
abbrev S8192x2x2 : Shape := ⟨3, ![8192, 2, 2]⟩
abbrev S8192x4 : Shape := ⟨2, ![8192, 4]⟩
abbrev S8192x4x1 : Shape := ⟨3, ![8192, 4, 1]⟩
abbrev S8192x4x2 : Shape := ⟨3, ![8192, 4, 2]⟩
abbrev S8192x8 : Shape := ⟨2, ![8192, 8]⟩
abbrev S8192x8x1 : Shape := ⟨3, ![8192, 8, 1]⟩
abbrev S8192x8x2 : Shape := ⟨3, ![8192, 8, 2]⟩
abbrev S8192x16 : Shape := ⟨2, ![8192, 16]⟩
abbrev S8192x16x1 : Shape := ⟨3, ![8192, 16, 1]⟩
abbrev S8192x16x2 : Shape := ⟨3, ![8192, 16, 2]⟩
abbrev S8192x32 : Shape := ⟨2, ![8192, 32]⟩
abbrev S8192x32x1 : Shape := ⟨3, ![8192, 32, 1]⟩
abbrev S8192x32x2 : Shape := ⟨3, ![8192, 32, 2]⟩
abbrev S8192x64 : Shape := ⟨2, ![8192, 64]⟩
abbrev S8192x64x1 : Shape := ⟨3, ![8192, 64, 1]⟩
abbrev S8192x64x2 : Shape := ⟨3, ![8192, 64, 2]⟩
abbrev S8192x128 : Shape := ⟨2, ![8192, 128]⟩
abbrev S128 : Shape := ⟨1, ![128]⟩
abbrev S128x1 : Shape := ⟨2, ![128, 1]⟩
abbrev S8192x1000 : Shape := ⟨2, ![8192, 1000]⟩

abbrev nBuf : Space → Nat
  | .hbm => 107
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S127x2048, .f32⟩
  | .hbm, ⟨2, _⟩ => ⟨S127, .f32⟩
  | .hbm, ⟨3, _⟩ => ⟨S128x1000, .f32⟩
  | .hbm, ⟨4, _⟩ => ⟨S2048x127, .f32⟩
  | .hbm, ⟨5, _⟩ => ⟨S8192x127, .f32⟩
  | .hbm, ⟨6, _⟩ => ⟨S1x127, .f32⟩
  | .hbm, ⟨7, _⟩ => ⟨S8192x127, .f32⟩
  | .hbm, ⟨8, _⟩ => ⟨S8192x127, .f32⟩
  | .hbm, ⟨9, _⟩ => ⟨S_, .f32⟩
  | .hbm, ⟨10, _⟩ => ⟨S8192x127, .f32⟩
  | .hbm, ⟨11, _⟩ => ⟨S8192x127, .f32⟩
  | .hbm, ⟨12, _⟩ => ⟨S8192x127, .f32⟩
  | .hbm, ⟨13, _⟩ => ⟨S8192x127, .f32⟩
  | .hbm, ⟨14, _⟩ => ⟨S_, .f32⟩
  | .hbm, ⟨15, _⟩ => ⟨S8192x127, .f32⟩
  | .hbm, ⟨16, _⟩ => ⟨S8192x127, .f32⟩
  | .hbm, ⟨17, _⟩ => ⟨S_, .f32⟩
  | .hbm, ⟨18, _⟩ => ⟨S8192x127, .f32⟩
  | .hbm, ⟨19, _⟩ => ⟨S8192x127, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1x1, .f32⟩
  | .hbm, ⟨29, _⟩ => ⟨S8192x1x1, .f32⟩
  | .hbm, ⟨30, _⟩ => ⟨S8192x1x2, .f32⟩
  | .hbm, ⟨31, _⟩ => ⟨S8192x2, .f32⟩
  | .hbm, ⟨32, _⟩ => ⟨S8192x2, .f32⟩
  | .hbm, ⟨33, _⟩ => ⟨S_, .f32⟩
  | .hbm, ⟨34, _⟩ => ⟨S8192x2, .f32⟩
  | .hbm, ⟨35, _⟩ => ⟨S8192x2, .f32⟩
  | .hbm, ⟨36, _⟩ => ⟨S8192x2, .f32⟩
  | .hbm, ⟨37, _⟩ => ⟨S8192x2, .f32⟩
  | .hbm, ⟨38, _⟩ => ⟨S8192x2x1, .f32⟩
  | .hbm, ⟨39, _⟩ => ⟨S8192x2x1, .f32⟩
  | .hbm, ⟨40, _⟩ => ⟨S8192x2x2, .f32⟩
  | .hbm, ⟨41, _⟩ => ⟨S8192x4, .f32⟩
  | .hbm, ⟨42, _⟩ => ⟨S8192x4, .f32⟩
  | .hbm, ⟨43, _⟩ => ⟨S_, .f32⟩
  | .hbm, ⟨44, _⟩ => ⟨S8192x4, .f32⟩
  | .hbm, ⟨45, _⟩ => ⟨S8192x4, .f32⟩
  | .hbm, ⟨46, _⟩ => ⟨S8192x4, .f32⟩
  | .hbm, ⟨47, _⟩ => ⟨S8192x4, .f32⟩
  | .hbm, ⟨48, _⟩ => ⟨S8192x4x1, .f32⟩
  | .hbm, ⟨49, _⟩ => ⟨S8192x4x1, .f32⟩
  | .hbm, ⟨50, _⟩ => ⟨S8192x4x2, .f32⟩
  | .hbm, ⟨51, _⟩ => ⟨S8192x8, .f32⟩
  | .hbm, ⟨52, _⟩ => ⟨S8192x8, .f32⟩
  | .hbm, ⟨53, _⟩ => ⟨S_, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S8192x8, .f32⟩
  | .hbm, ⟨58, _⟩ => ⟨S8192x8x1, .f32⟩
  | .hbm, ⟨59, _⟩ => ⟨S8192x8x1, .f32⟩
  | .hbm, ⟨60, _⟩ => ⟨S8192x8x2, .f32⟩
  | .hbm, ⟨61, _⟩ => ⟨S8192x16, .f32⟩
  | .hbm, ⟨62, _⟩ => ⟨S8192x16, .f32⟩
  | .hbm, ⟨63, _⟩ => ⟨S_, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16x1, .f32⟩
  | .hbm, ⟨69, _⟩ => ⟨S8192x16x1, .f32⟩
  | .hbm, ⟨70, _⟩ => ⟨S8192x16x2, .f32⟩
  | .hbm, ⟨71, _⟩ => ⟨S8192x32, .f32⟩
  | .hbm, ⟨72, _⟩ => ⟨S8192x32, .f32⟩
  | .hbm, ⟨73, _⟩ => ⟨S_, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32x1, .f32⟩
  | .hbm, ⟨79, _⟩ => ⟨S8192x32x1, .f32⟩
  | .hbm, ⟨80, _⟩ => ⟨S8192x32x2, .f32⟩
  | .hbm, ⟨81, _⟩ => ⟨S8192x64, .f32⟩
  | .hbm, ⟨82, _⟩ => ⟨S8192x64, .f32⟩
  | .hbm, ⟨83, _⟩ => ⟨S_, .f32⟩
  | .hbm, ⟨84, _⟩ => ⟨S8192x64, .f32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S8192x64x1, .f32⟩
  | .hbm, ⟨89, _⟩ => ⟨S8192x64x1, .f32⟩
  | .hbm, ⟨90, _⟩ => ⟨S8192x64x2, .f32⟩
  | .hbm, ⟨91, _⟩ => ⟨S8192x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x1000, .f32⟩
  | .hbm, ⟨99, _⟩ => ⟨S128x1000, .f32⟩
  | .hbm, ⟨100, _⟩ => ⟨S128x1000, .f32⟩
  | .hbm, ⟨101, _⟩ => ⟨S_, .f32⟩
  | .hbm, ⟨102, _⟩ => ⟨S128, .f32⟩
  | .hbm, ⟨103, _⟩ => ⟨S128x1, .f32⟩
  | .hbm, ⟨104, _⟩ => ⟨S128x1000, .f32⟩
  | .hbm, ⟨105, _⟩ => ⟨S128x1000, .f32⟩
  | .hbm, ⟨106, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_10 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_12 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩

abbrev nD : Nat := 1
abbrev τ : Topo := Topo.v7x

variable {F : FTy → Type} [FloatOps F]

class Facts₀ : Prop where
  transposes_S127x2048_S2048x127_1_0 : S127x2048.Transposes [1, 0] S2048x127
  bcast_S127_S1x127_1 : S127.BroadcastsInDim S1x127 (![1] : Fin 1 → Fin S1x127.rank)
  bcast_S1x127_S8192x127_0_1 : S1x127.BroadcastsInDim S8192x127 (![0, 1] : Fin 2 → Fin S8192x127.rank)
  bcast_S_S8192x127 : S_.BroadcastsInDim S8192x127 (![] : Fin 0 → Fin S8192x127.rank)
  bcast_S_S8192x1 : S_.BroadcastsInDim S8192x1 (![] : Fin 0 → Fin S8192x1.rank)
  slices_S8192x127_S8192x1_0_0 : S8192x127.Slices ![0, 0] S8192x1
  bcast_S8192x1_S8192x1x1_0_1 : S8192x1.BroadcastsInDim S8192x1x1 (![0, 1] : Fin 2 → Fin S8192x1x1.rank)
  concatenates_S8192x1x1_S8192x1x1_S8192x1x2_d2 : Shape.Concatenates [S8192x1x1, S8192x1x1] S8192x1x2 2
  shapeCasts_S8192x1x2_S8192x2 : S8192x1x2.ShapeCasts S8192x2
  slices_S8192x127_S8192x2_0_1 : S8192x127.Slices ![0, 1] S8192x2
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  concatenates_S8192x2x1_S8192x2x1_S8192x2x2_d2 : Shape.Concatenates [S8192x2x1, S8192x2x1] S8192x2x2 2
  shapeCasts_S8192x2x2_S8192x4 : S8192x2x2.ShapeCasts S8192x4
  slices_S8192x127_S8192x4_0_3 : S8192x127.Slices ![0, 3] S8192x4
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  concatenates_S8192x4x1_S8192x4x1_S8192x4x2_d2 : Shape.Concatenates [S8192x4x1, S8192x4x1] S8192x4x2 2
  shapeCasts_S8192x4x2_S8192x8 : S8192x4x2.ShapeCasts S8192x8
  slices_S8192x127_S8192x8_0_7 : S8192x127.Slices ![0, 7] S8192x8
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  concatenates_S8192x8x1_S8192x8x1_S8192x8x2_d2 : Shape.Concatenates [S8192x8x1, S8192x8x1] S8192x8x2 2
  shapeCasts_S8192x8x2_S8192x16 : S8192x8x2.ShapeCasts S8192x16
  slices_S8192x127_S8192x16_0_15 : S8192x127.Slices ![0, 15] S8192x16
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  concatenates_S8192x16x1_S8192x16x1_S8192x16x2_d2 : Shape.Concatenates [S8192x16x1, S8192x16x1] S8192x16x2 2
  shapeCasts_S8192x16x2_S8192x32 : S8192x16x2.ShapeCasts S8192x32
  slices_S8192x127_S8192x32_0_31 : S8192x127.Slices ![0, 31] S8192x32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  concatenates_S8192x32x1_S8192x32x1_S8192x32x2_d2 : Shape.Concatenates [S8192x32x1, S8192x32x1] S8192x32x2 2
  shapeCasts_S8192x32x2_S8192x64 : S8192x32x2.ShapeCasts S8192x64
  slices_S8192x127_S8192x64_0_63 : S8192x127.Slices ![0, 63] S8192x64
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  concatenates_S8192x64x1_S8192x64x1_S8192x64x2_d2 : Shape.Concatenates [S8192x64x1, S8192x64x1] S8192x64x2 2
  shapeCasts_S8192x64x2_S8192x128 : S8192x64x2.ShapeCasts S8192x128
  reducesTo_S128x1000_S128_d1 : S128x1000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x1000_0_1 : S128x1.BroadcastsInDim S128x1000 (![0, 1] : Fin 2 → Fin S128x1000.rank)
  dot_S8192x2048_S2048x127_S8192x127_1_0_0_1_n_n_wf : DotDims.WF S8192x2048 S2048x127 S8192x127 [1] [0] [0] [1] [] []
  dot_S8192x128_S128x1000_S8192x1000_1_0_0_1_n_n_wf : DotDims.WF S8192x128 S128x1000 S8192x1000 [1] [0] [0] [1] [] []

variable [Facts₀]

def dot_S8192x2048_S2048x127_S8192x127_1_0_0_1_n_n : DotDims S8192x2048 S2048x127 S8192x127 where
  lhsContracting := [1]
  rhsContracting := [0]
  lhsNonContracting := [0]
  rhsNonContracting := [1]
  lhsBatch := []
  rhsBatch := []
  wf := dot_S8192x2048_S2048x127_S8192x127_1_0_0_1_n_n_wf
def dot_S8192x128_S128x1000_S8192x1000_1_0_0_1_n_n : DotDims S8192x128 S128x1000 S8192x1000 where
  lhsContracting := [1]
  rhsContracting := [0]
  lhsNonContracting := [0]
  rhsNonContracting := [1]
  lhsBatch := []
  rhsBatch := []
  wf := dot_S8192x128_S128x1000_S8192x1000_1_0_0_1_n_n_wf

class Facts : Prop extends Facts₀ where

variable [Facts]
-- ==== Proof.RefRun.lean ====
/-
  The reference program's run, read stretch by stretch.

  The reference's @main is a straight line of 103 whole-array operations. Read in ten consecutive stretches — the
  gates; each of the seven levels of the tree from the level before and a band of gate columns; the row softmax of
  the leaf parameters; the final product —, each stretch writes one array that later stretches read, as a function of
  the arrays the earlier stretches wrote, and leaves every other array as it was. Composing the ten gives the result
  array as the operations' composed term of the four argument arrays, and the arguments end as launched because no
  operation writes them.
-/
import proofs.«153887_j58325655879930_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, and in ten stretches -/

/-- @main's 103 operations, in order. -/
abbrev ops : List (HloOp τ sig (Elt F)) :=
  [ unary main_arg1 main_v0 ((transpose S2048x127 [1, 0] · transposes_S127x2048_S2048x127_1_0) : (⟨S127x2048, .f32⟩ : BufTy).Contents (Elt F) → (⟨S2048x127, .f32⟩ : BufTy).Contents (Elt F)),
    binary main_arg0 main_v0 main_v1 ((fun l r => Host.dotGeneral dot_S8192x2048_S2048x127_S8192x127_1_0_0_1_n_n none l r) : (⟨S8192x2048, .f32⟩ : BufTy).Contents (Elt F) → (⟨S2048x127, .f32⟩ : BufTy).Contents (Elt F) → (⟨S8192x127, .f32⟩ : BufTy).Contents (Elt F)),
    unary main_arg2 main_v2 (broadcastInDim S1x127 ![1] bcast_S127_S1x127_1 : (⟨S127, .f32⟩ : BufTy).Contents (Elt F) → (⟨S1x127, .f32⟩ : BufTy).Contents (Elt F)),
    unary main_v2 main_v3 (broadcastInDim S8192x127 ![0, 1] bcast_S1x127_S8192x127_0_1 : (⟨S1x127, .f32⟩ : BufTy).Contents (Elt F) → (⟨S8192x127, .f32⟩ : BufTy).Contents (Elt F)),
    binary main_v1 main_v3 main_v4 (addf : (⟨S8192x127, .f32⟩ : BufTy).Contents (Elt F) → (⟨S8192x127, .f32⟩ : BufTy).Contents (Elt F) → (⟨S8192x127, .f32⟩ : BufTy).Contents (Elt F)),
    nullary main_cst (constant S_ .f32 0x3F800000#32),
    unary main_cst main_v5 (broadcastInDim S8192x127 ![] bcast_S_S8192x127 : (⟨S_, .f32⟩ : BufTy).Contents (Elt F) → (⟨S8192x127, .f32⟩ : BufTy).Contents (Elt F)),
    binary main_v5 main_v4 main_v6 (mulf : (⟨S8192x127, .f32⟩ : BufTy).Contents (Elt F) → (⟨S8192x127, .f32⟩ : BufTy).Contents (Elt F) → (⟨S8192x127, .f32⟩ : BufTy).Contents (Elt F)),
    unary main_v6 main_v7 (Host.negf : (⟨S8192x127, .f32⟩ : BufTy).Contents (Elt F) → (⟨S8192x127, .f32⟩ : BufTy).Contents (Elt F)),
    unary main_v7 main_v8 (Host.exp : (⟨S8192x127, .f32⟩ : BufTy).Contents (Elt F) → (⟨S8192x127, .f32⟩ : BufTy).Contents (Elt F)),
    nullary main_cst_0 (constant S_ .f32 0x3F800000#32),
    unary main_cst_0 main_v9 (broadcastInDim S8192x127 ![] bcast_S_S8192x127 : (⟨S_, .f32⟩ : BufTy).Contents (Elt F) → (⟨S8192x127, .f32⟩ : BufTy).Contents (Elt F)),
    binary main_v9 main_v8 main_v10 (addf : (⟨S8192x127, .f32⟩ : BufTy).Contents (Elt F) → (⟨S8192x127, .f32⟩ : BufTy).Contents (Elt F) → (⟨S8192x127, .f32⟩ : BufTy).Contents (Elt F)),
    nullary main_cst_1 (constant S_ .f32 0x3F800000#32),
    unary main_cst_1 main_v11 (broadcastInDim S8192x127 ![] bcast_S_S8192x127 : (⟨S_, .f32⟩ : BufTy).Contents (Elt F) → (⟨S8192x127, .f32⟩ : BufTy).Contents (Elt F)),
    binary main_v11 main_v10 main_v12 (Host.divf : (⟨S8192x127, .f32⟩ : BufTy).Contents (Elt F) → (⟨S8192x127, .f32⟩ : BufTy).Contents (Elt F) → (⟨S8192x127, .f32⟩ : BufTy).Contents (Elt F)),
    nullary main_cst_2 (constant S_ .f32 0x3F800000#32),
    unary main_cst_2 main_v13 (broadcastInDim S8192x1 ![] bcast_S_S8192x1 : (⟨S_, .f32⟩ : BufTy).Contents (Elt F) → (⟨S8192x1, .f32⟩ : BufTy).Contents (Elt F)),
    unary main_v12 main_v14 ((extractStridedSlice S8192x1 ![0, 0] · slices_S8192x127_S8192x1_0_0) : (⟨S8192x127, .f32⟩ : BufTy).Contents (Elt F) → (⟨S8192x1, .f32⟩ : BufTy).Contents (Elt F)),
    nullary main_cst_3 (constant S_ .f32 0x3F800000#32),
    unary main_cst_3 main_v15 (broadcastInDim S8192x1 ![] bcast_S_S8192x1 : (⟨S_, .f32⟩ : BufTy).Contents (Elt F) → (⟨S8192x1, .f32⟩ : BufTy).Contents (Elt F)),
    binary main_v15 main_v14 main_v16 (subf : (⟨S8192x1, .f32⟩ : BufTy).Contents (Elt F) → (⟨S8192x1, .f32⟩ : BufTy).Contents (Elt F) → (⟨S8192x1, .f32⟩ : BufTy).Contents (Elt F)),
    binary main_v16 main_v13 main_v17 (mulf : (⟨S8192x1, .f32⟩ : BufTy).Contents (Elt F) → (⟨S8192x1, .f32⟩ : BufTy).Contents (Elt F) → (⟨S8192x1, .f32⟩ : BufTy).Contents (Elt F)),
    binary main_v14 main_v13 main_v18 (mulf : (⟨S8192x1, .f32⟩ : BufTy).Contents (Elt F) → (⟨S8192x1, .f32⟩ : BufTy).Contents (Elt F) → (⟨S8192x1, .f32⟩ : BufTy).Contents (Elt F)),
    unary main_v17 main_v19 (broadcastInDim S8192x1x1 ![0, 1] bcast_S8192x1_S8192x1x1_0_1 : (⟨S8192x1, .f32⟩ : BufTy).Contents (Elt F) → (⟨S8192x1x1, .f32⟩ : BufTy).Contents (Elt F)),
    unary main_v18 main_v20 (broadcastInDim S8192x1x1 ![0, 1] bcast_S8192x1_S8192x1x1_0_1 : (⟨S8192x1, .f32⟩ : BufTy).Contents (Elt F) → (⟨S8192x1x1, .f32⟩ : BufTy).Contents (Elt F)),
    binary main_v19 main_v20 main_v21 ((fun a b => concatenate S8192x1x2 2 [⟨S8192x1x1, a⟩, ⟨S8192x1x1, b⟩] concatenates_S8192x1x1_S8192x1x1_S8192x1x2_d2) : (⟨S8192x1x1, .f32⟩ : BufTy).Contents (Elt F) → (⟨S8192x1x1, .f32⟩ : BufTy).Contents (Elt F) → (⟨S8192x1x2, .f32⟩ : BufTy).Contents (Elt F)),
    reshape main_v21 main_v22 rfl shapeCasts_S8192x1x2_S8192x2,
    unary main_v12 main_v23 ((extractStridedSlice S8192x2 ![0, 1] · slices_S8192x127_S8192x2_0_1) : (⟨S8192x127, .f32⟩ : BufTy).Contents (Elt F) → (⟨S8192x2, .f32⟩ : BufTy).Contents (Elt F)),
    nullary main_cst_4 (constant S_ .f32 0x3F800000#32),
    unary main_cst_4 main_v24 (broadcastInDim S8192x2 ![] bcast_S_S8192x2 : (⟨S_, .f32⟩ : BufTy).Contents (Elt F) → (⟨S8192x2, .f32⟩ : BufTy).Contents (Elt F)),
    binary main_v24 main_v23 main_v25 (subf : (⟨S8192x2, .f32⟩ : BufTy).Contents (Elt F) → (⟨S8192x2, .f32⟩ : BufTy).Contents (Elt F) → (⟨S8192x2, .f32⟩ : BufTy).Contents (Elt F)),
    binary main_v25 main_v22 main_v26 (mulf : (⟨S8192x2, .f32⟩ : BufTy).Contents (Elt F) → (⟨S8192x2, .f32⟩ : BufTy).Contents (Elt F) → (⟨S8192x2, .f32⟩ : BufTy).Contents (Elt F)),
    binary main_v23 main_v22 main_v27 (mulf : (⟨S8192x2, .f32⟩ : BufTy).Contents (Elt F) → (⟨S8192x2, .f32⟩ : BufTy).Contents (Elt F) → (⟨S8192x2, .f32⟩ : BufTy).Contents (Elt F)),
    unary main_v26 main_v28 (broadcastInDim S8192x2x1 ![0, 1] bcast_S8192x2_S8192x2x1_0_1 : (⟨S8192x2, .f32⟩ : BufTy).Contents (Elt F) → (⟨S8192x2x1, .f32⟩ : BufTy).Contents (Elt F)),
    unary main_v27 main_v29 (broadcastInDim S8192x2x1 ![0, 1] bcast_S8192x2_S8192x2x1_0_1 : (⟨S8192x2, .f32⟩ : BufTy).Contents (Elt F) → (⟨S8192x2x1, .f32⟩ : BufTy).Contents (Elt F)),
    binary main_v28 main_v29 main_v30 ((fun a b => concatenate S8192x2x2 2 [⟨S8192x2x1, a⟩, ⟨S8192x2x1, b⟩] concatenates_S8192x2x1_S8192x2x1_S8192x2x2_d2) : (⟨S8192x2x1, .f32⟩ : BufTy).Contents (Elt F) → (⟨S8192x2x1, .f32⟩ : BufTy).Contents (Elt F) → (⟨S8192x2x2, .f32⟩ : BufTy).Contents (Elt F)),
    reshape main_v30 main_v31 rfl shapeCasts_S8192x2x2_S8192x4,
    unary main_v12 main_v32 ((extractStridedSlice S8192x4 ![0, 3] · slices_S8192x127_S8192x4_0_3) : (⟨S8192x127, .f32⟩ : BufTy).Contents (Elt F) → (⟨S8192x4, .f32⟩ : BufTy).Contents (Elt F)),
    nullary main_cst_5 (constant S_ .f32 0x3F800000#32),
    unary main_cst_5 main_v33 (broadcastInDim S8192x4 ![] bcast_S_S8192x4 : (⟨S_, .f32⟩ : BufTy).Contents (Elt F) → (⟨S8192x4, .f32⟩ : BufTy).Contents (Elt F)),
    binary main_v33 main_v32 main_v34 (subf : (⟨S8192x4, .f32⟩ : BufTy).Contents (Elt F) → (⟨S8192x4, .f32⟩ : BufTy).Contents (Elt F) → (⟨S8192x4, .f32⟩ : BufTy).Contents (Elt F)),
    binary main_v34 main_v31 main_v35 (mulf : (⟨S8192x4, .f32⟩ : BufTy).Contents (Elt F) → (⟨S8192x4, .f32⟩ : BufTy).Contents (Elt F) → (⟨S8192x4, .f32⟩ : BufTy).Contents (Elt F)),
    binary main_v32 main_v31 main_v36 (mulf : (⟨S8192x4, .f32⟩ : BufTy).Contents (Elt F) → (⟨S8192x4, .f32⟩ : BufTy).Contents (Elt F) → (⟨S8192x4, .f32⟩ : BufTy).Contents (Elt F)),
    unary main_v35 main_v37 (broadcastInDim S8192x4x1 ![0, 1] bcast_S8192x4_S8192x4x1_0_1 : (⟨S8192x4, .f32⟩ : BufTy).Contents (Elt F) → (⟨S8192x4x1, .f32⟩ : BufTy).Contents (Elt F)),
    unary main_v36 main_v38 (broadcastInDim S8192x4x1 ![0, 1] bcast_S8192x4_S8192x4x1_0_1 : (⟨S8192x4, .f32⟩ : BufTy).Contents (Elt F) → (⟨S8192x4x1, .f32⟩ : BufTy).Contents (Elt F)),
    binary main_v37 main_v38 main_v39 ((fun a b => concatenate S8192x4x2 2 [⟨S8192x4x1, a⟩, ⟨S8192x4x1, b⟩] concatenates_S8192x4x1_S8192x4x1_S8192x4x2_d2) : (⟨S8192x4x1, .f32⟩ : BufTy).Contents (Elt F) → (⟨S8192x4x1, .f32⟩ : BufTy).Contents (Elt F) → (⟨S8192x4x2, .f32⟩ : BufTy).Contents (Elt F)),
    reshape main_v39 main_v40 rfl shapeCasts_S8192x4x2_S8192x8,
    unary main_v12 main_v41 ((extractStridedSlice S8192x8 ![0, 7] · slices_S8192x127_S8192x8_0_7) : (⟨S8192x127, .f32⟩ : BufTy).Contents (Elt F) → (⟨S8192x8, .f32⟩ : BufTy).Contents (Elt F)),
    nullary main_cst_6 (constant S_ .f32 0x3F800000#32),
    unary main_cst_6 main_v42 (broadcastInDim S8192x8 ![] bcast_S_S8192x8 : (⟨S_, .f32⟩ : BufTy).Contents (Elt F) → (⟨S8192x8, .f32⟩ : BufTy).Contents (Elt F)),
    binary main_v42 main_v41 main_v43 (subf : (⟨S8192x8, .f32⟩ : BufTy).Contents (Elt F) → (⟨S8192x8, .f32⟩ : BufTy).Contents (Elt F) → (⟨S8192x8, .f32⟩ : BufTy).Contents (Elt F)),
    binary main_v43 main_v40 main_v44 (mulf : (⟨S8192x8, .f32⟩ : BufTy).Contents (Elt F) → (⟨S8192x8, .f32⟩ : BufTy).Contents (Elt F) → (⟨S8192x8, .f32⟩ : BufTy).Contents (Elt F)),
    binary main_v41 main_v40 main_v45 (mulf : (⟨S8192x8, .f32⟩ : BufTy).Contents (Elt F) → (⟨S8192x8, .f32⟩ : BufTy).Contents (Elt F) → (⟨S8192x8, .f32⟩ : BufTy).Contents (Elt F)),
    unary main_v44 main_v46 (broadcastInDim S8192x8x1 ![0, 1] bcast_S8192x8_S8192x8x1_0_1 : (⟨S8192x8, .f32⟩ : BufTy).Contents (Elt F) → (⟨S8192x8x1, .f32⟩ : BufTy).Contents (Elt F)),
    unary main_v45 main_v47 (broadcastInDim S8192x8x1 ![0, 1] bcast_S8192x8_S8192x8x1_0_1 : (⟨S8192x8, .f32⟩ : BufTy).Contents (Elt F) → (⟨S8192x8x1, .f32⟩ : BufTy).Contents (Elt F)),
    binary main_v46 main_v47 main_v48 ((fun a b => concatenate S8192x8x2 2 [⟨S8192x8x1, a⟩, ⟨S8192x8x1, b⟩] concatenates_S8192x8x1_S8192x8x1_S8192x8x2_d2) : (⟨S8192x8x1, .f32⟩ : BufTy).Contents (Elt F) → (⟨S8192x8x1, .f32⟩ : BufTy).Contents (Elt F) → (⟨S8192x8x2, .f32⟩ : BufTy).Contents (Elt F)),
    reshape main_v48 main_v49 rfl shapeCasts_S8192x8x2_S8192x16,
    unary main_v12 main_v50 ((extractStridedSlice S8192x16 ![0, 15] · slices_S8192x127_S8192x16_0_15) : (⟨S8192x127, .f32⟩ : BufTy).Contents (Elt F) → (⟨S8192x16, .f32⟩ : BufTy).Contents (Elt F)),
    nullary main_cst_7 (constant S_ .f32 0x3F800000#32),
    unary main_cst_7 main_v51 (broadcastInDim S8192x16 ![] bcast_S_S8192x16 : (⟨S_, .f32⟩ : BufTy).Contents (Elt F) → (⟨S8192x16, .f32⟩ : BufTy).Contents (Elt F)),
    binary main_v51 main_v50 main_v52 (subf : (⟨S8192x16, .f32⟩ : BufTy).Contents (Elt F) → (⟨S8192x16, .f32⟩ : BufTy).Contents (Elt F) → (⟨S8192x16, .f32⟩ : BufTy).Contents (Elt F)),
    binary main_v52 main_v49 main_v53 (mulf : (⟨S8192x16, .f32⟩ : BufTy).Contents (Elt F) → (⟨S8192x16, .f32⟩ : BufTy).Contents (Elt F) → (⟨S8192x16, .f32⟩ : BufTy).Contents (Elt F)),
    binary main_v50 main_v49 main_v54 (mulf : (⟨S8192x16, .f32⟩ : BufTy).Contents (Elt F) → (⟨S8192x16, .f32⟩ : BufTy).Contents (Elt F) → (⟨S8192x16, .f32⟩ : BufTy).Contents (Elt F)),
    unary main_v53 main_v55 (broadcastInDim S8192x16x1 ![0, 1] bcast_S8192x16_S8192x16x1_0_1 : (⟨S8192x16, .f32⟩ : BufTy).Contents (Elt F) → (⟨S8192x16x1, .f32⟩ : BufTy).Contents (Elt F)),
    unary main_v54 main_v56 (broadcastInDim S8192x16x1 ![0, 1] bcast_S8192x16_S8192x16x1_0_1 : (⟨S8192x16, .f32⟩ : BufTy).Contents (Elt F) → (⟨S8192x16x1, .f32⟩ : BufTy).Contents (Elt F)),
    binary main_v55 main_v56 main_v57 ((fun a b => concatenate S8192x16x2 2 [⟨S8192x16x1, a⟩, ⟨S8192x16x1, b⟩] concatenates_S8192x16x1_S8192x16x1_S8192x16x2_d2) : (⟨S8192x16x1, .f32⟩ : BufTy).Contents (Elt F) → (⟨S8192x16x1, .f32⟩ : BufTy).Contents (Elt F) → (⟨S8192x16x2, .f32⟩ : BufTy).Contents (Elt F)),
    reshape main_v57 main_v58 rfl shapeCasts_S8192x16x2_S8192x32,
    unary main_v12 main_v59 ((extractStridedSlice S8192x32 ![0, 31] · slices_S8192x127_S8192x32_0_31) : (⟨S8192x127, .f32⟩ : BufTy).Contents (Elt F) → (⟨S8192x32, .f32⟩ : BufTy).Contents (Elt F)),
    nullary main_cst_8 (constant S_ .f32 0x3F800000#32),
    unary main_cst_8 main_v60 (broadcastInDim S8192x32 ![] bcast_S_S8192x32 : (⟨S_, .f32⟩ : BufTy).Contents (Elt F) → (⟨S8192x32, .f32⟩ : BufTy).Contents (Elt F)),
    binary main_v60 main_v59 main_v61 (subf : (⟨S8192x32, .f32⟩ : BufTy).Contents (Elt F) → (⟨S8192x32, .f32⟩ : BufTy).Contents (Elt F) → (⟨S8192x32, .f32⟩ : BufTy).Contents (Elt F)),
    binary main_v61 main_v58 main_v62 (mulf : (⟨S8192x32, .f32⟩ : BufTy).Contents (Elt F) → (⟨S8192x32, .f32⟩ : BufTy).Contents (Elt F) → (⟨S8192x32, .f32⟩ : BufTy).Contents (Elt F)),
    binary main_v59 main_v58 main_v63 (mulf : (⟨S8192x32, .f32⟩ : BufTy).Contents (Elt F) → (⟨S8192x32, .f32⟩ : BufTy).Contents (Elt F) → (⟨S8192x32, .f32⟩ : BufTy).Contents (Elt F)),
    unary main_v62 main_v64 (broadcastInDim S8192x32x1 ![0, 1] bcast_S8192x32_S8192x32x1_0_1 : (⟨S8192x32, .f32⟩ : BufTy).Contents (Elt F) → (⟨S8192x32x1, .f32⟩ : BufTy).Contents (Elt F)),
    unary main_v63 main_v65 (broadcastInDim S8192x32x1 ![0, 1] bcast_S8192x32_S8192x32x1_0_1 : (⟨S8192x32, .f32⟩ : BufTy).Contents (Elt F) → (⟨S8192x32x1, .f32⟩ : BufTy).Contents (Elt F)),
    binary main_v64 main_v65 main_v66 ((fun a b => concatenate S8192x32x2 2 [⟨S8192x32x1, a⟩, ⟨S8192x32x1, b⟩] concatenates_S8192x32x1_S8192x32x1_S8192x32x2_d2) : (⟨S8192x32x1, .f32⟩ : BufTy).Contents (Elt F) → (⟨S8192x32x1, .f32⟩ : BufTy).Contents (Elt F) → (⟨S8192x32x2, .f32⟩ : BufTy).Contents (Elt F)),
    reshape main_v66 main_v67 rfl shapeCasts_S8192x32x2_S8192x64,
    unary main_v12 main_v68 ((extractStridedSlice S8192x64 ![0, 63] · slices_S8192x127_S8192x64_0_63) : (⟨S8192x127, .f32⟩ : BufTy).Contents (Elt F) → (⟨S8192x64, .f32⟩ : BufTy).Contents (Elt F)),
    nullary main_cst_9 (constant S_ .f32 0x3F800000#32),
    unary main_cst_9 main_v69 (broadcastInDim S8192x64 ![] bcast_S_S8192x64 : (⟨S_, .f32⟩ : BufTy).Contents (Elt F) → (⟨S8192x64, .f32⟩ : BufTy).Contents (Elt F)),
    binary main_v69 main_v68 main_v70 (subf : (⟨S8192x64, .f32⟩ : BufTy).Contents (Elt F) → (⟨S8192x64, .f32⟩ : BufTy).Contents (Elt F) → (⟨S8192x64, .f32⟩ : BufTy).Contents (Elt F)),
    binary main_v70 main_v67 main_v71 (mulf : (⟨S8192x64, .f32⟩ : BufTy).Contents (Elt F) → (⟨S8192x64, .f32⟩ : BufTy).Contents (Elt F) → (⟨S8192x64, .f32⟩ : BufTy).Contents (Elt F)),
    binary main_v68 main_v67 main_v72 (mulf : (⟨S8192x64, .f32⟩ : BufTy).Contents (Elt F) → (⟨S8192x64, .f32⟩ : BufTy).Contents (Elt F) → (⟨S8192x64, .f32⟩ : BufTy).Contents (Elt F)),
    unary main_v71 main_v73 (broadcastInDim S8192x64x1 ![0, 1] bcast_S8192x64_S8192x64x1_0_1 : (⟨S8192x64, .f32⟩ : BufTy).Contents (Elt F) → (⟨S8192x64x1, .f32⟩ : BufTy).Contents (Elt F)),
    unary main_v72 main_v74 (broadcastInDim S8192x64x1 ![0, 1] bcast_S8192x64_S8192x64x1_0_1 : (⟨S8192x64, .f32⟩ : BufTy).Contents (Elt F) → (⟨S8192x64x1, .f32⟩ : BufTy).Contents (Elt F)),
    binary main_v73 main_v74 main_v75 ((fun a b => concatenate S8192x64x2 2 [⟨S8192x64x1, a⟩, ⟨S8192x64x1, b⟩] concatenates_S8192x64x1_S8192x64x1_S8192x64x2_d2) : (⟨S8192x64x1, .f32⟩ : BufTy).Contents (Elt F) → (⟨S8192x64x1, .f32⟩ : BufTy).Contents (Elt F) → (⟨S8192x64x2, .f32⟩ : BufTy).Contents (Elt F)),
    reshape main_v75 main_v76 rfl shapeCasts_S8192x64x2_S8192x128,
    nullary main_cst_10 (constant S_ .f32 0xFF800000#32),
    binary main_arg3 main_cst_10 main_v77 ((fun x v => Host.reduce FloatOps.maximumf x v reducesTo_S128x1000_S128_d1 h_S_) : (⟨S128x1000, .f32⟩ : BufTy).Contents (Elt F) → (⟨S_, .f32⟩ : BufTy).Contents (Elt F) → (⟨S128, .f32⟩ : BufTy).Contents (Elt F)),
    nullary main_cst_11 (constant S_ .f32 0xFF800000#32),
    unary main_cst_11 main_v78 (broadcastInDim S128 ![] bcast_S_S128 : (⟨S_, .f32⟩ : BufTy).Contents (Elt F) → (⟨S128, .f32⟩ : BufTy).Contents (Elt F)),
    binary main_v78 main_v77 main_v79 (maximumf : (⟨S128, .f32⟩ : BufTy).Contents (Elt F) → (⟨S128, .f32⟩ : BufTy).Contents (Elt F) → (⟨S128, .f32⟩ : BufTy).Contents (Elt F)),
    unary main_v79 main_v80 (broadcastInDim S128x1 ![0] bcast_S128_S128x1_0 : (⟨S128, .f32⟩ : BufTy).Contents (Elt F) → (⟨S128x1, .f32⟩ : BufTy).Contents (Elt F)),
    unary main_v80 main_v81 (broadcastInDim S128x1000 ![0, 1] bcast_S128x1_S128x1000_0_1 : (⟨S128x1, .f32⟩ : BufTy).Contents (Elt F) → (⟨S128x1000, .f32⟩ : BufTy).Contents (Elt F)),
    binary main_arg3 main_v81 main_v82 (subf : (⟨S128x1000, .f32⟩ : BufTy).Contents (Elt F) → (⟨S128x1000, .f32⟩ : BufTy).Contents (Elt F) → (⟨S128x1000, .f32⟩ : BufTy).Contents (Elt F)),
    unary main_v82 main_v83 (Host.exp : (⟨S128x1000, .f32⟩ : BufTy).Contents (Elt F) → (⟨S128x1000, .f32⟩ : BufTy).Contents (Elt F)),
    nullary main_cst_12 (constant S_ .f32 0x00000000#32),
    binary main_v83 main_cst_12 main_v84 ((fun x v => Host.reduceAdd x v reducesTo_S128x1000_S128_d1 h_S_) : (⟨S128x1000, .f32⟩ : BufTy).Contents (Elt F) → (⟨S_, .f32⟩ : BufTy).Contents (Elt F) → (⟨S128, .f32⟩ : BufTy).Contents (Elt F)),
    unary main_v84 main_v85 (broadcastInDim S128x1 ![0] bcast_S128_S128x1_0 : (⟨S128, .f32⟩ : BufTy).Contents (Elt F) → (⟨S128x1, .f32⟩ : BufTy).Contents (Elt F)),
    unary main_v85 main_v86 (broadcastInDim S128x1000 ![0, 1] bcast_S128x1_S128x1000_0_1 : (⟨S128x1, .f32⟩ : BufTy).Contents (Elt F) → (⟨S128x1000, .f32⟩ : BufTy).Contents (Elt F)),
    binary main_v83 main_v86 main_v87 (Host.divf : (⟨S128x1000, .f32⟩ : BufTy).Contents (Elt F) → (⟨S128x1000, .f32⟩ : BufTy).Contents (Elt F) → (⟨S128x1000, .f32⟩ : BufTy).Contents (Elt F)),
    binary main_v76 main_v87 main_v88 ((fun l r => Host.dotGeneral dot_S8192x128_S128x1000_S8192x1000_1_0_0_1_n_n none l r) : (⟨S8192x128, .f32⟩ : BufTy).Contents (Elt F) → (⟨S128x1000, .f32⟩ : BufTy).Contents (Elt F) → (⟨S8192x1000, .f32⟩ : BufTy).Contents (Elt F)) ]

/-- The gates: the product with the transposed node weights, the bias, the literal one, and `1 / (1 + exp (-·))`. -/
abbrev gateOps : List (HloOp τ sig (Elt F)) :=
  [ unary main_arg1 main_v0 ((transpose S2048x127 [1, 0] · transposes_S127x2048_S2048x127_1_0) : (⟨S127x2048, .f32⟩ : BufTy).Contents (Elt F) → (⟨S2048x127, .f32⟩ : BufTy).Contents (Elt F)),
    binary main_arg0 main_v0 main_v1 ((fun l r => Host.dotGeneral dot_S8192x2048_S2048x127_S8192x127_1_0_0_1_n_n none l r) : (⟨S8192x2048, .f32⟩ : BufTy).Contents (Elt F) → (⟨S2048x127, .f32⟩ : BufTy).Contents (Elt F) → (⟨S8192x127, .f32⟩ : BufTy).Contents (Elt F)),
    unary main_arg2 main_v2 (broadcastInDim S1x127 ![1] bcast_S127_S1x127_1 : (⟨S127, .f32⟩ : BufTy).Contents (Elt F) → (⟨S1x127, .f32⟩ : BufTy).Contents (Elt F)),
    unary main_v2 main_v3 (broadcastInDim S8192x127 ![0, 1] bcast_S1x127_S8192x127_0_1 : (⟨S1x127, .f32⟩ : BufTy).Contents (Elt F) → (⟨S8192x127, .f32⟩ : BufTy).Contents (Elt F)),
    binary main_v1 main_v3 main_v4 (addf : (⟨S8192x127, .f32⟩ : BufTy).Contents (Elt F) → (⟨S8192x127, .f32⟩ : BufTy).Contents (Elt F) → (⟨S8192x127, .f32⟩ : BufTy).Contents (Elt F)),
    nullary main_cst (constant S_ .f32 0x3F800000#32),
    unary main_cst main_v5 (broadcastInDim S8192x127 ![] bcast_S_S8192x127 : (⟨S_, .f32⟩ : BufTy).Contents (Elt F) → (⟨S8192x127, .f32⟩ : BufTy).Contents (Elt F)),
    binary main_v5 main_v4 main_v6 (mulf : (⟨S8192x127, .f32⟩ : BufTy).Contents (Elt F) → (⟨S8192x127, .f32⟩ : BufTy).Contents (Elt F) → (⟨S8192x127, .f32⟩ : BufTy).Contents (Elt F)),
    unary main_v6 main_v7 (Host.negf : (⟨S8192x127, .f32⟩ : BufTy).Contents (Elt F) → (⟨S8192x127, .f32⟩ : BufTy).Contents (Elt F)),
    unary main_v7 main_v8 (Host.exp : (⟨S8192x127, .f32⟩ : BufTy).Contents (Elt F) → (⟨S8192x127, .f32⟩ : BufTy).Contents (Elt F)),
    nullary main_cst_0 (constant S_ .f32 0x3F800000#32),
    unary main_cst_0 main_v9 (broadcastInDim S8192x127 ![] bcast_S_S8192x127 : (⟨S_, .f32⟩ : BufTy).Contents (Elt F) → (⟨S8192x127, .f32⟩ : BufTy).Contents (Elt F)),
    binary main_v9 main_v8 main_v10 (addf : (⟨S8192x127, .f32⟩ : BufTy).Contents (Elt F) → (⟨S8192x127, .f32⟩ : BufTy).Contents (Elt F) → (⟨S8192x127, .f32⟩ : BufTy).Contents (Elt F)),
    nullary main_cst_1 (constant S_ .f32 0x3F800000#32),
    unary main_cst_1 main_v11 (broadcastInDim S8192x127 ![] bcast_S_S8192x127 : (⟨S_, .f32⟩ : BufTy).Contents (Elt F) → (⟨S8192x127, .f32⟩ : BufTy).Contents (Elt F)),
    binary main_v11 main_v10 main_v12 (Host.divf : (⟨S8192x127, .f32⟩ : BufTy).Contents (Elt F) → (⟨S8192x127, .f32⟩ : BufTy).Contents (Elt F) → (⟨S8192x127, .f32⟩ : BufTy).Contents (Elt F)) ]

/-- The buffers those operations write. -/
abbrev gateOps_W : List (Ref sig .tc) := [main_v0, main_v1, main_v2, main_v3, main_v4, main_cst, main_v5, main_v6, main_v7, main_v8, main_cst_0, main_v9, main_v10, main_cst_1, main_v11, main_v12]

theorem gateOps_writes : (gateOps : List (HloOp τ sig (Elt F))).Forall fun op => op.writes ⊆ (gateOps_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 1 from the root's ones and gate column 0. -/
abbrev level1Ops : List (HloOp τ sig (Elt F)) :=
  [ nullary main_cst_2 (constant S_ .f32 0x3F800000#32),
    unary main_cst_2 main_v13 (broadcastInDim S8192x1 ![] bcast_S_S8192x1 : (⟨S_, .f32⟩ : BufTy).Contents (Elt F) → (⟨S8192x1, .f32⟩ : BufTy).Contents (Elt F)),
    unary main_v12 main_v14 ((extractStridedSlice S8192x1 ![0, 0] · slices_S8192x127_S8192x1_0_0) : (⟨S8192x127, .f32⟩ : BufTy).Contents (Elt F) → (⟨S8192x1, .f32⟩ : BufTy).Contents (Elt F)),
    nullary main_cst_3 (constant S_ .f32 0x3F800000#32),
    unary main_cst_3 main_v15 (broadcastInDim S8192x1 ![] bcast_S_S8192x1 : (⟨S_, .f32⟩ : BufTy).Contents (Elt F) → (⟨S8192x1, .f32⟩ : BufTy).Contents (Elt F)),
    binary main_v15 main_v14 main_v16 (subf : (⟨S8192x1, .f32⟩ : BufTy).Contents (Elt F) → (⟨S8192x1, .f32⟩ : BufTy).Contents (Elt F) → (⟨S8192x1, .f32⟩ : BufTy).Contents (Elt F)),
    binary main_v16 main_v13 main_v17 (mulf : (⟨S8192x1, .f32⟩ : BufTy).Contents (Elt F) → (⟨S8192x1, .f32⟩ : BufTy).Contents (Elt F) → (⟨S8192x1, .f32⟩ : BufTy).Contents (Elt F)),
    binary main_v14 main_v13 main_v18 (mulf : (⟨S8192x1, .f32⟩ : BufTy).Contents (Elt F) → (⟨S8192x1, .f32⟩ : BufTy).Contents (Elt F) → (⟨S8192x1, .f32⟩ : BufTy).Contents (Elt F)),
    unary main_v17 main_v19 (broadcastInDim S8192x1x1 ![0, 1] bcast_S8192x1_S8192x1x1_0_1 : (⟨S8192x1, .f32⟩ : BufTy).Contents (Elt F) → (⟨S8192x1x1, .f32⟩ : BufTy).Contents (Elt F)),
    unary main_v18 main_v20 (broadcastInDim S8192x1x1 ![0, 1] bcast_S8192x1_S8192x1x1_0_1 : (⟨S8192x1, .f32⟩ : BufTy).Contents (Elt F) → (⟨S8192x1x1, .f32⟩ : BufTy).Contents (Elt F)),
    binary main_v19 main_v20 main_v21 ((fun a b => concatenate S8192x1x2 2 [⟨S8192x1x1, a⟩, ⟨S8192x1x1, b⟩] concatenates_S8192x1x1_S8192x1x1_S8192x1x2_d2) : (⟨S8192x1x1, .f32⟩ : BufTy).Contents (Elt F) → (⟨S8192x1x1, .f32⟩ : BufTy).Contents (Elt F) → (⟨S8192x1x2, .f32⟩ : BufTy).Contents (Elt F)),
    reshape main_v21 main_v22 rfl shapeCasts_S8192x1x2_S8192x2 ]

/-- The buffers those operations write. -/
abbrev level1Ops_W : List (Ref sig .tc) := [main_cst_2, main_v13, main_v14, main_cst_3, main_v15, main_v16, main_v17, main_v18, main_v19, main_v20, main_v21, main_v22]

theorem level1Ops_writes : (level1Ops : List (HloOp τ sig (Elt F))).Forall fun op => op.writes ⊆ (level1Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 2 from level 1 and gate columns 1 to 2. -/
abbrev level2Ops : List (HloOp τ sig (Elt F)) :=
  [ unary main_v12 main_v23 ((extractStridedSlice S8192x2 ![0, 1] · slices_S8192x127_S8192x2_0_1) : (⟨S8192x127, .f32⟩ : BufTy).Contents (Elt F) → (⟨S8192x2, .f32⟩ : BufTy).Contents (Elt F)),
    nullary main_cst_4 (constant S_ .f32 0x3F800000#32),
    unary main_cst_4 main_v24 (broadcastInDim S8192x2 ![] bcast_S_S8192x2 : (⟨S_, .f32⟩ : BufTy).Contents (Elt F) → (⟨S8192x2, .f32⟩ : BufTy).Contents (Elt F)),
    binary main_v24 main_v23 main_v25 (subf : (⟨S8192x2, .f32⟩ : BufTy).Contents (Elt F) → (⟨S8192x2, .f32⟩ : BufTy).Contents (Elt F) → (⟨S8192x2, .f32⟩ : BufTy).Contents (Elt F)),
    binary main_v25 main_v22 main_v26 (mulf : (⟨S8192x2, .f32⟩ : BufTy).Contents (Elt F) → (⟨S8192x2, .f32⟩ : BufTy).Contents (Elt F) → (⟨S8192x2, .f32⟩ : BufTy).Contents (Elt F)),
    binary main_v23 main_v22 main_v27 (mulf : (⟨S8192x2, .f32⟩ : BufTy).Contents (Elt F) → (⟨S8192x2, .f32⟩ : BufTy).Contents (Elt F) → (⟨S8192x2, .f32⟩ : BufTy).Contents (Elt F)),
    unary main_v26 main_v28 (broadcastInDim S8192x2x1 ![0, 1] bcast_S8192x2_S8192x2x1_0_1 : (⟨S8192x2, .f32⟩ : BufTy).Contents (Elt F) → (⟨S8192x2x1, .f32⟩ : BufTy).Contents (Elt F)),
    unary main_v27 main_v29 (broadcastInDim S8192x2x1 ![0, 1] bcast_S8192x2_S8192x2x1_0_1 : (⟨S8192x2, .f32⟩ : BufTy).Contents (Elt F) → (⟨S8192x2x1, .f32⟩ : BufTy).Contents (Elt F)),
    binary main_v28 main_v29 main_v30 ((fun a b => concatenate S8192x2x2 2 [⟨S8192x2x1, a⟩, ⟨S8192x2x1, b⟩] concatenates_S8192x2x1_S8192x2x1_S8192x2x2_d2) : (⟨S8192x2x1, .f32⟩ : BufTy).Contents (Elt F) → (⟨S8192x2x1, .f32⟩ : BufTy).Contents (Elt F) → (⟨S8192x2x2, .f32⟩ : BufTy).Contents (Elt F)),
    reshape main_v30 main_v31 rfl shapeCasts_S8192x2x2_S8192x4 ]

/-- The buffers those operations write. -/
abbrev level2Ops_W : List (Ref sig .tc) := [main_v23, main_cst_4, main_v24, main_v25, main_v26, main_v27, main_v28, main_v29, main_v30, main_v31]

theorem level2Ops_writes : (level2Ops : List (HloOp τ sig (Elt F))).Forall fun op => op.writes ⊆ (level2Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 3 from level 2 and gate columns 3 to 6. -/
abbrev level3Ops : List (HloOp τ sig (Elt F)) :=
  [ unary main_v12 main_v32 ((extractStridedSlice S8192x4 ![0, 3] · slices_S8192x127_S8192x4_0_3) : (⟨S8192x127, .f32⟩ : BufTy).Contents (Elt F) → (⟨S8192x4, .f32⟩ : BufTy).Contents (Elt F)),
    nullary main_cst_5 (constant S_ .f32 0x3F800000#32),
    unary main_cst_5 main_v33 (broadcastInDim S8192x4 ![] bcast_S_S8192x4 : (⟨S_, .f32⟩ : BufTy).Contents (Elt F) → (⟨S8192x4, .f32⟩ : BufTy).Contents (Elt F)),
    binary main_v33 main_v32 main_v34 (subf : (⟨S8192x4, .f32⟩ : BufTy).Contents (Elt F) → (⟨S8192x4, .f32⟩ : BufTy).Contents (Elt F) → (⟨S8192x4, .f32⟩ : BufTy).Contents (Elt F)),
    binary main_v34 main_v31 main_v35 (mulf : (⟨S8192x4, .f32⟩ : BufTy).Contents (Elt F) → (⟨S8192x4, .f32⟩ : BufTy).Contents (Elt F) → (⟨S8192x4, .f32⟩ : BufTy).Contents (Elt F)),
    binary main_v32 main_v31 main_v36 (mulf : (⟨S8192x4, .f32⟩ : BufTy).Contents (Elt F) → (⟨S8192x4, .f32⟩ : BufTy).Contents (Elt F) → (⟨S8192x4, .f32⟩ : BufTy).Contents (Elt F)),
    unary main_v35 main_v37 (broadcastInDim S8192x4x1 ![0, 1] bcast_S8192x4_S8192x4x1_0_1 : (⟨S8192x4, .f32⟩ : BufTy).Contents (Elt F) → (⟨S8192x4x1, .f32⟩ : BufTy).Contents (Elt F)),
    unary main_v36 main_v38 (broadcastInDim S8192x4x1 ![0, 1] bcast_S8192x4_S8192x4x1_0_1 : (⟨S8192x4, .f32⟩ : BufTy).Contents (Elt F) → (⟨S8192x4x1, .f32⟩ : BufTy).Contents (Elt F)),
    binary main_v37 main_v38 main_v39 ((fun a b => concatenate S8192x4x2 2 [⟨S8192x4x1, a⟩, ⟨S8192x4x1, b⟩] concatenates_S8192x4x1_S8192x4x1_S8192x4x2_d2) : (⟨S8192x4x1, .f32⟩ : BufTy).Contents (Elt F) → (⟨S8192x4x1, .f32⟩ : BufTy).Contents (Elt F) → (⟨S8192x4x2, .f32⟩ : BufTy).Contents (Elt F)),
    reshape main_v39 main_v40 rfl shapeCasts_S8192x4x2_S8192x8 ]

/-- The buffers those operations write. -/
abbrev level3Ops_W : List (Ref sig .tc) := [main_v32, main_cst_5, main_v33, main_v34, main_v35, main_v36, main_v37, main_v38, main_v39, main_v40]

theorem level3Ops_writes : (level3Ops : List (HloOp τ sig (Elt F))).Forall fun op => op.writes ⊆ (level3Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 4 from level 3 and gate columns 7 to 14. -/
abbrev level4Ops : List (HloOp τ sig (Elt F)) :=
  [ unary main_v12 main_v41 ((extractStridedSlice S8192x8 ![0, 7] · slices_S8192x127_S8192x8_0_7) : (⟨S8192x127, .f32⟩ : BufTy).Contents (Elt F) → (⟨S8192x8, .f32⟩ : BufTy).Contents (Elt F)),
    nullary main_cst_6 (constant S_ .f32 0x3F800000#32),
    unary main_cst_6 main_v42 (broadcastInDim S8192x8 ![] bcast_S_S8192x8 : (⟨S_, .f32⟩ : BufTy).Contents (Elt F) → (⟨S8192x8, .f32⟩ : BufTy).Contents (Elt F)),
    binary main_v42 main_v41 main_v43 (subf : (⟨S8192x8, .f32⟩ : BufTy).Contents (Elt F) → (⟨S8192x8, .f32⟩ : BufTy).Contents (Elt F) → (⟨S8192x8, .f32⟩ : BufTy).Contents (Elt F)),
    binary main_v43 main_v40 main_v44 (mulf : (⟨S8192x8, .f32⟩ : BufTy).Contents (Elt F) → (⟨S8192x8, .f32⟩ : BufTy).Contents (Elt F) → (⟨S8192x8, .f32⟩ : BufTy).Contents (Elt F)),
    binary main_v41 main_v40 main_v45 (mulf : (⟨S8192x8, .f32⟩ : BufTy).Contents (Elt F) → (⟨S8192x8, .f32⟩ : BufTy).Contents (Elt F) → (⟨S8192x8, .f32⟩ : BufTy).Contents (Elt F)),
    unary main_v44 main_v46 (broadcastInDim S8192x8x1 ![0, 1] bcast_S8192x8_S8192x8x1_0_1 : (⟨S8192x8, .f32⟩ : BufTy).Contents (Elt F) → (⟨S8192x8x1, .f32⟩ : BufTy).Contents (Elt F)),
    unary main_v45 main_v47 (broadcastInDim S8192x8x1 ![0, 1] bcast_S8192x8_S8192x8x1_0_1 : (⟨S8192x8, .f32⟩ : BufTy).Contents (Elt F) → (⟨S8192x8x1, .f32⟩ : BufTy).Contents (Elt F)),
    binary main_v46 main_v47 main_v48 ((fun a b => concatenate S8192x8x2 2 [⟨S8192x8x1, a⟩, ⟨S8192x8x1, b⟩] concatenates_S8192x8x1_S8192x8x1_S8192x8x2_d2) : (⟨S8192x8x1, .f32⟩ : BufTy).Contents (Elt F) → (⟨S8192x8x1, .f32⟩ : BufTy).Contents (Elt F) → (⟨S8192x8x2, .f32⟩ : BufTy).Contents (Elt F)),
    reshape main_v48 main_v49 rfl shapeCasts_S8192x8x2_S8192x16 ]

/-- The buffers those operations write. -/
abbrev level4Ops_W : List (Ref sig .tc) := [main_v41, main_cst_6, main_v42, main_v43, main_v44, main_v45, main_v46, main_v47, main_v48, main_v49]

theorem level4Ops_writes : (level4Ops : List (HloOp τ sig (Elt F))).Forall fun op => op.writes ⊆ (level4Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 5 from level 4 and gate columns 15 to 30. -/
abbrev level5Ops : List (HloOp τ sig (Elt F)) :=
  [ unary main_v12 main_v50 ((extractStridedSlice S8192x16 ![0, 15] · slices_S8192x127_S8192x16_0_15) : (⟨S8192x127, .f32⟩ : BufTy).Contents (Elt F) → (⟨S8192x16, .f32⟩ : BufTy).Contents (Elt F)),
    nullary main_cst_7 (constant S_ .f32 0x3F800000#32),
    unary main_cst_7 main_v51 (broadcastInDim S8192x16 ![] bcast_S_S8192x16 : (⟨S_, .f32⟩ : BufTy).Contents (Elt F) → (⟨S8192x16, .f32⟩ : BufTy).Contents (Elt F)),
    binary main_v51 main_v50 main_v52 (subf : (⟨S8192x16, .f32⟩ : BufTy).Contents (Elt F) → (⟨S8192x16, .f32⟩ : BufTy).Contents (Elt F) → (⟨S8192x16, .f32⟩ : BufTy).Contents (Elt F)),
    binary main_v52 main_v49 main_v53 (mulf : (⟨S8192x16, .f32⟩ : BufTy).Contents (Elt F) → (⟨S8192x16, .f32⟩ : BufTy).Contents (Elt F) → (⟨S8192x16, .f32⟩ : BufTy).Contents (Elt F)),
    binary main_v50 main_v49 main_v54 (mulf : (⟨S8192x16, .f32⟩ : BufTy).Contents (Elt F) → (⟨S8192x16, .f32⟩ : BufTy).Contents (Elt F) → (⟨S8192x16, .f32⟩ : BufTy).Contents (Elt F)),
    unary main_v53 main_v55 (broadcastInDim S8192x16x1 ![0, 1] bcast_S8192x16_S8192x16x1_0_1 : (⟨S8192x16, .f32⟩ : BufTy).Contents (Elt F) → (⟨S8192x16x1, .f32⟩ : BufTy).Contents (Elt F)),
    unary main_v54 main_v56 (broadcastInDim S8192x16x1 ![0, 1] bcast_S8192x16_S8192x16x1_0_1 : (⟨S8192x16, .f32⟩ : BufTy).Contents (Elt F) → (⟨S8192x16x1, .f32⟩ : BufTy).Contents (Elt F)),
    binary main_v55 main_v56 main_v57 ((fun a b => concatenate S8192x16x2 2 [⟨S8192x16x1, a⟩, ⟨S8192x16x1, b⟩] concatenates_S8192x16x1_S8192x16x1_S8192x16x2_d2) : (⟨S8192x16x1, .f32⟩ : BufTy).Contents (Elt F) → (⟨S8192x16x1, .f32⟩ : BufTy).Contents (Elt F) → (⟨S8192x16x2, .f32⟩ : BufTy).Contents (Elt F)),
    reshape main_v57 main_v58 rfl shapeCasts_S8192x16x2_S8192x32 ]

/-- The buffers those operations write. -/
abbrev level5Ops_W : List (Ref sig .tc) := [main_v50, main_cst_7, main_v51, main_v52, main_v53, main_v54, main_v55, main_v56, main_v57, main_v58]

theorem level5Ops_writes : (level5Ops : List (HloOp τ sig (Elt F))).Forall fun op => op.writes ⊆ (level5Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 6 from level 5 and gate columns 31 to 62. -/
abbrev level6Ops : List (HloOp τ sig (Elt F)) :=
  [ unary main_v12 main_v59 ((extractStridedSlice S8192x32 ![0, 31] · slices_S8192x127_S8192x32_0_31) : (⟨S8192x127, .f32⟩ : BufTy).Contents (Elt F) → (⟨S8192x32, .f32⟩ : BufTy).Contents (Elt F)),
    nullary main_cst_8 (constant S_ .f32 0x3F800000#32),
    unary main_cst_8 main_v60 (broadcastInDim S8192x32 ![] bcast_S_S8192x32 : (⟨S_, .f32⟩ : BufTy).Contents (Elt F) → (⟨S8192x32, .f32⟩ : BufTy).Contents (Elt F)),
    binary main_v60 main_v59 main_v61 (subf : (⟨S8192x32, .f32⟩ : BufTy).Contents (Elt F) → (⟨S8192x32, .f32⟩ : BufTy).Contents (Elt F) → (⟨S8192x32, .f32⟩ : BufTy).Contents (Elt F)),
    binary main_v61 main_v58 main_v62 (mulf : (⟨S8192x32, .f32⟩ : BufTy).Contents (Elt F) → (⟨S8192x32, .f32⟩ : BufTy).Contents (Elt F) → (⟨S8192x32, .f32⟩ : BufTy).Contents (Elt F)),
    binary main_v59 main_v58 main_v63 (mulf : (⟨S8192x32, .f32⟩ : BufTy).Contents (Elt F) → (⟨S8192x32, .f32⟩ : BufTy).Contents (Elt F) → (⟨S8192x32, .f32⟩ : BufTy).Contents (Elt F)),
    unary main_v62 main_v64 (broadcastInDim S8192x32x1 ![0, 1] bcast_S8192x32_S8192x32x1_0_1 : (⟨S8192x32, .f32⟩ : BufTy).Contents (Elt F) → (⟨S8192x32x1, .f32⟩ : BufTy).Contents (Elt F)),
    unary main_v63 main_v65 (broadcastInDim S8192x32x1 ![0, 1] bcast_S8192x32_S8192x32x1_0_1 : (⟨S8192x32, .f32⟩ : BufTy).Contents (Elt F) → (⟨S8192x32x1, .f32⟩ : BufTy).Contents (Elt F)),
    binary main_v64 main_v65 main_v66 ((fun a b => concatenate S8192x32x2 2 [⟨S8192x32x1, a⟩, ⟨S8192x32x1, b⟩] concatenates_S8192x32x1_S8192x32x1_S8192x32x2_d2) : (⟨S8192x32x1, .f32⟩ : BufTy).Contents (Elt F) → (⟨S8192x32x1, .f32⟩ : BufTy).Contents (Elt F) → (⟨S8192x32x2, .f32⟩ : BufTy).Contents (Elt F)),
    reshape main_v66 main_v67 rfl shapeCasts_S8192x32x2_S8192x64 ]

/-- The buffers those operations write. -/
abbrev level6Ops_W : List (Ref sig .tc) := [main_v59, main_cst_8, main_v60, main_v61, main_v62, main_v63, main_v64, main_v65, main_v66, main_v67]

theorem level6Ops_writes : (level6Ops : List (HloOp τ sig (Elt F))).Forall fun op => op.writes ⊆ (level6Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Level 7, the leaves, from level 6 and gate columns 63 to 126. -/
abbrev level7Ops : List (HloOp τ sig (Elt F)) :=
  [ unary main_v12 main_v68 ((extractStridedSlice S8192x64 ![0, 63] · slices_S8192x127_S8192x64_0_63) : (⟨S8192x127, .f32⟩ : BufTy).Contents (Elt F) → (⟨S8192x64, .f32⟩ : BufTy).Contents (Elt F)),
    nullary main_cst_9 (constant S_ .f32 0x3F800000#32),
    unary main_cst_9 main_v69 (broadcastInDim S8192x64 ![] bcast_S_S8192x64 : (⟨S_, .f32⟩ : BufTy).Contents (Elt F) → (⟨S8192x64, .f32⟩ : BufTy).Contents (Elt F)),
    binary main_v69 main_v68 main_v70 (subf : (⟨S8192x64, .f32⟩ : BufTy).Contents (Elt F) → (⟨S8192x64, .f32⟩ : BufTy).Contents (Elt F) → (⟨S8192x64, .f32⟩ : BufTy).Contents (Elt F)),
    binary main_v70 main_v67 main_v71 (mulf : (⟨S8192x64, .f32⟩ : BufTy).Contents (Elt F) → (⟨S8192x64, .f32⟩ : BufTy).Contents (Elt F) → (⟨S8192x64, .f32⟩ : BufTy).Contents (Elt F)),
    binary main_v68 main_v67 main_v72 (mulf : (⟨S8192x64, .f32⟩ : BufTy).Contents (Elt F) → (⟨S8192x64, .f32⟩ : BufTy).Contents (Elt F) → (⟨S8192x64, .f32⟩ : BufTy).Contents (Elt F)),
    unary main_v71 main_v73 (broadcastInDim S8192x64x1 ![0, 1] bcast_S8192x64_S8192x64x1_0_1 : (⟨S8192x64, .f32⟩ : BufTy).Contents (Elt F) → (⟨S8192x64x1, .f32⟩ : BufTy).Contents (Elt F)),
    unary main_v72 main_v74 (broadcastInDim S8192x64x1 ![0, 1] bcast_S8192x64_S8192x64x1_0_1 : (⟨S8192x64, .f32⟩ : BufTy).Contents (Elt F) → (⟨S8192x64x1, .f32⟩ : BufTy).Contents (Elt F)),
    binary main_v73 main_v74 main_v75 ((fun a b => concatenate S8192x64x2 2 [⟨S8192x64x1, a⟩, ⟨S8192x64x1, b⟩] concatenates_S8192x64x1_S8192x64x1_S8192x64x2_d2) : (⟨S8192x64x1, .f32⟩ : BufTy).Contents (Elt F) → (⟨S8192x64x1, .f32⟩ : BufTy).Contents (Elt F) → (⟨S8192x64x2, .f32⟩ : BufTy).Contents (Elt F)),
    reshape main_v75 main_v76 rfl shapeCasts_S8192x64x2_S8192x128 ]

/-- The buffers those operations write. -/
abbrev level7Ops_W : List (Ref sig .tc) := [main_v68, main_cst_9, main_v69, main_v70, main_v71, main_v72, main_v73, main_v74, main_v75, main_v76]

theorem level7Ops_writes : (level7Ops : List (HloOp τ sig (Elt F))).Forall fun op => op.writes ⊆ (level7Ops_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The leaf rows: the row softmax of the leaf parameters. -/
abbrev leafRowOps : List (HloOp τ sig (Elt F)) :=
  [ nullary main_cst_10 (constant S_ .f32 0xFF800000#32),
    binary main_arg3 main_cst_10 main_v77 ((fun x v => Host.reduce FloatOps.maximumf x v reducesTo_S128x1000_S128_d1 h_S_) : (⟨S128x1000, .f32⟩ : BufTy).Contents (Elt F) → (⟨S_, .f32⟩ : BufTy).Contents (Elt F) → (⟨S128, .f32⟩ : BufTy).Contents (Elt F)),
    nullary main_cst_11 (constant S_ .f32 0xFF800000#32),
    unary main_cst_11 main_v78 (broadcastInDim S128 ![] bcast_S_S128 : (⟨S_, .f32⟩ : BufTy).Contents (Elt F) → (⟨S128, .f32⟩ : BufTy).Contents (Elt F)),
    binary main_v78 main_v77 main_v79 (maximumf : (⟨S128, .f32⟩ : BufTy).Contents (Elt F) → (⟨S128, .f32⟩ : BufTy).Contents (Elt F) → (⟨S128, .f32⟩ : BufTy).Contents (Elt F)),
    unary main_v79 main_v80 (broadcastInDim S128x1 ![0] bcast_S128_S128x1_0 : (⟨S128, .f32⟩ : BufTy).Contents (Elt F) → (⟨S128x1, .f32⟩ : BufTy).Contents (Elt F)),
    unary main_v80 main_v81 (broadcastInDim S128x1000 ![0, 1] bcast_S128x1_S128x1000_0_1 : (⟨S128x1, .f32⟩ : BufTy).Contents (Elt F) → (⟨S128x1000, .f32⟩ : BufTy).Contents (Elt F)),
    binary main_arg3 main_v81 main_v82 (subf : (⟨S128x1000, .f32⟩ : BufTy).Contents (Elt F) → (⟨S128x1000, .f32⟩ : BufTy).Contents (Elt F) → (⟨S128x1000, .f32⟩ : BufTy).Contents (Elt F)),
    unary main_v82 main_v83 (Host.exp : (⟨S128x1000, .f32⟩ : BufTy).Contents (Elt F) → (⟨S128x1000, .f32⟩ : BufTy).Contents (Elt F)),
    nullary main_cst_12 (constant S_ .f32 0x00000000#32),
    binary main_v83 main_cst_12 main_v84 ((fun x v => Host.reduceAdd x v reducesTo_S128x1000_S128_d1 h_S_) : (⟨S128x1000, .f32⟩ : BufTy).Contents (Elt F) → (⟨S_, .f32⟩ : BufTy).Contents (Elt F) → (⟨S128, .f32⟩ : BufTy).Contents (Elt F)),
    unary main_v84 main_v85 (broadcastInDim S128x1 ![0] bcast_S128_S128x1_0 : (⟨S128, .f32⟩ : BufTy).Contents (Elt F) → (⟨S128x1, .f32⟩ : BufTy).Contents (Elt F)),
    unary main_v85 main_v86 (broadcastInDim S128x1000 ![0, 1] bcast_S128x1_S128x1000_0_1 : (⟨S128x1, .f32⟩ : BufTy).Contents (Elt F) → (⟨S128x1000, .f32⟩ : BufTy).Contents (Elt F)),
    binary main_v83 main_v86 main_v87 (Host.divf : (⟨S128x1000, .f32⟩ : BufTy).Contents (Elt F) → (⟨S128x1000, .f32⟩ : BufTy).Contents (Elt F) → (⟨S128x1000, .f32⟩ : BufTy).Contents (Elt F)) ]

/-- The buffers those operations write. -/
abbrev leafRowOps_W : List (Ref sig .tc) := [main_cst_10, main_v77, main_cst_11, main_v78, main_v79, main_v80, main_v81, main_v82, main_v83, main_cst_12, main_v84, main_v85, main_v86, main_v87]

theorem leafRowOps_writes : (leafRowOps : List (HloOp τ sig (Elt F))).Forall fun op => op.writes ⊆ (leafRowOps_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The mix: the product of the leaf level with the leaf rows. -/
abbrev mixOps : List (HloOp τ sig (Elt F)) :=
  [ binary main_v76 main_v87 main_v88 ((fun l r => Host.dotGeneral dot_S8192x128_S128x1000_S8192x1000_1_0_0_1_n_n none l r) : (⟨S8192x128, .f32⟩ : BufTy).Contents (Elt F) → (⟨S128x1000, .f32⟩ : BufTy).Contents (Elt F) → (⟨S8192x1000, .f32⟩ : BufTy).Contents (Elt F)) ]

/-- The buffers those operations write. -/
abbrev mixOps_W : List (Ref sig .tc) := [main_v88]

theorem mixOps_writes : (mixOps : List (HloOp τ sig (Elt F))).Forall fun op => op.writes ⊆ (mixOps_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-! ## The named stages: each array later stretches read, as the operations' composed term of the arguments -/

set_option maxRecDepth 8192 in
/-- `main_v12`'s composed term of the arguments (named: it is used 7 times). -/
def res_main_v12 (V0 : Valuation τ sig (Elt F)) : (Proc.devRef .tc main_v12 : DevRef τ sig).ty.Contents (Elt F) :=
  Host.divf (broadcastInDim S8192x127 ![] bcast_S_S8192x127 (constant S_ .f32 0x3F800000#32)) (addf (broadcastInDim S8192x127 ![] bcast_S_S8192x127 (constant S_ .f32 0x3F800000#32)) (Host.exp (Host.negf (mulf (broadcastInDim S8192x127 ![] bcast_S_S8192x127 (constant S_ .f32 0x3F800000#32)) (addf (Host.dotGeneral dot_S8192x2048_S2048x127_S8192x127_1_0_0_1_n_n none (V0 (Proc.devRef .tc main_arg0)) (transpose S2048x127 [1, 0] (V0 (Proc.devRef .tc main_arg1)) transposes_S127x2048_S2048x127_1_0)) (broadcastInDim S8192x127 ![0, 1] bcast_S1x127_S8192x127_0_1 (broadcastInDim S1x127 ![1] bcast_S127_S1x127_1 (V0 (Proc.devRef .tc main_arg2)))))))))

set_option maxRecDepth 8192 in
/-- `main_v13`'s composed term of the arguments (named: it is used 2 times). -/
def res_main_v13 (V0 : Valuation τ sig (Elt F)) : (Proc.devRef .tc main_v13 : DevRef τ sig).ty.Contents (Elt F) :=
  broadcastInDim S8192x1 ![] bcast_S_S8192x1 (constant S_ .f32 0x3F800000#32)

set_option maxRecDepth 8192 in
/-- `main_v14`'s composed term of the arguments (named: it is used 2 times). -/
def res_main_v14 (V0 : Valuation τ sig (Elt F)) : (Proc.devRef .tc main_v14 : DevRef τ sig).ty.Contents (Elt F) :=
  extractStridedSlice S8192x1 ![0, 0] (res_main_v12 V0) slices_S8192x127_S8192x1_0_0

set_option maxRecDepth 8192 in
/-- `main_v22`'s composed term of the arguments (named: it is used 2 times). -/
def res_main_v22 (V0 : Valuation τ sig (Elt F)) : (Proc.devRef .tc main_v22 : DevRef τ sig).ty.Contents (Elt F) :=
  shapeCast _ (concatenate S8192x1x2 2 [⟨S8192x1x1, (broadcastInDim S8192x1x1 ![0, 1] bcast_S8192x1_S8192x1x1_0_1 (mulf (subf (broadcastInDim S8192x1 ![] bcast_S_S8192x1 (constant S_ .f32 0x3F800000#32)) (res_main_v14 V0)) (res_main_v13 V0)))⟩, ⟨S8192x1x1, (broadcastInDim S8192x1x1 ![0, 1] bcast_S8192x1_S8192x1x1_0_1 (mulf (res_main_v14 V0) (res_main_v13 V0)))⟩] concatenates_S8192x1x1_S8192x1x1_S8192x1x2_d2) shapeCasts_S8192x1x2_S8192x2

set_option maxRecDepth 8192 in
/-- `main_v23`'s composed term of the arguments (named: it is used 2 times). -/
def res_main_v23 (V0 : Valuation τ sig (Elt F)) : (Proc.devRef .tc main_v23 : DevRef τ sig).ty.Contents (Elt F) :=
  extractStridedSlice S8192x2 ![0, 1] (res_main_v12 V0) slices_S8192x127_S8192x2_0_1

set_option maxRecDepth 8192 in
/-- `main_v31`'s composed term of the arguments (named: it is used 2 times). -/
def res_main_v31 (V0 : Valuation τ sig (Elt F)) : (Proc.devRef .tc main_v31 : DevRef τ sig).ty.Contents (Elt F) :=
  shapeCast _ (concatenate S8192x2x2 2 [⟨S8192x2x1, (broadcastInDim S8192x2x1 ![0, 1] bcast_S8192x2_S8192x2x1_0_1 (mulf (subf (broadcastInDim S8192x2 ![] bcast_S_S8192x2 (constant S_ .f32 0x3F800000#32)) (res_main_v23 V0)) (res_main_v22 V0)))⟩, ⟨S8192x2x1, (broadcastInDim S8192x2x1 ![0, 1] bcast_S8192x2_S8192x2x1_0_1 (mulf (res_main_v23 V0) (res_main_v22 V0)))⟩] concatenates_S8192x2x1_S8192x2x1_S8192x2x2_d2) shapeCasts_S8192x2x2_S8192x4

set_option maxRecDepth 8192 in
/-- `main_v32`'s composed term of the arguments (named: it is used 2 times). -/
def res_main_v32 (V0 : Valuation τ sig (Elt F)) : (Proc.devRef .tc main_v32 : DevRef τ sig).ty.Contents (Elt F) :=
  extractStridedSlice S8192x4 ![0, 3] (res_main_v12 V0) slices_S8192x127_S8192x4_0_3

set_option maxRecDepth 8192 in
/-- `main_v40`'s composed term of the arguments (named: it is used 2 times). -/
def res_main_v40 (V0 : Valuation τ sig (Elt F)) : (Proc.devRef .tc main_v40 : DevRef τ sig).ty.Contents (Elt F) :=
  shapeCast _ (concatenate S8192x4x2 2 [⟨S8192x4x1, (broadcastInDim S8192x4x1 ![0, 1] bcast_S8192x4_S8192x4x1_0_1 (mulf (subf (broadcastInDim S8192x4 ![] bcast_S_S8192x4 (constant S_ .f32 0x3F800000#32)) (res_main_v32 V0)) (res_main_v31 V0)))⟩, ⟨S8192x4x1, (broadcastInDim S8192x4x1 ![0, 1] bcast_S8192x4_S8192x4x1_0_1 (mulf (res_main_v32 V0) (res_main_v31 V0)))⟩] concatenates_S8192x4x1_S8192x4x1_S8192x4x2_d2) shapeCasts_S8192x4x2_S8192x8

set_option maxRecDepth 8192 in
/-- `main_v41`'s composed term of the arguments (named: it is used 2 times). -/
def res_main_v41 (V0 : Valuation τ sig (Elt F)) : (Proc.devRef .tc main_v41 : DevRef τ sig).ty.Contents (Elt F) :=
  extractStridedSlice S8192x8 ![0, 7] (res_main_v12 V0) slices_S8192x127_S8192x8_0_7

set_option maxRecDepth 8192 in
/-- `main_v49`'s composed term of the arguments (named: it is used 2 times). -/
def res_main_v49 (V0 : Valuation τ sig (Elt F)) : (Proc.devRef .tc main_v49 : DevRef τ sig).ty.Contents (Elt F) :=
  shapeCast _ (concatenate S8192x8x2 2 [⟨S8192x8x1, (broadcastInDim S8192x8x1 ![0, 1] bcast_S8192x8_S8192x8x1_0_1 (mulf (subf (broadcastInDim S8192x8 ![] bcast_S_S8192x8 (constant S_ .f32 0x3F800000#32)) (res_main_v41 V0)) (res_main_v40 V0)))⟩, ⟨S8192x8x1, (broadcastInDim S8192x8x1 ![0, 1] bcast_S8192x8_S8192x8x1_0_1 (mulf (res_main_v41 V0) (res_main_v40 V0)))⟩] concatenates_S8192x8x1_S8192x8x1_S8192x8x2_d2) shapeCasts_S8192x8x2_S8192x16

set_option maxRecDepth 8192 in
/-- `main_v50`'s composed term of the arguments (named: it is used 2 times). -/
def res_main_v50 (V0 : Valuation τ sig (Elt F)) : (Proc.devRef .tc main_v50 : DevRef τ sig).ty.Contents (Elt F) :=
  extractStridedSlice S8192x16 ![0, 15] (res_main_v12 V0) slices_S8192x127_S8192x16_0_15

set_option maxRecDepth 8192 in
/-- `main_v58`'s composed term of the arguments (named: it is used 2 times). -/
def res_main_v58 (V0 : Valuation τ sig (Elt F)) : (Proc.devRef .tc main_v58 : DevRef τ sig).ty.Contents (Elt F) :=
  shapeCast _ (concatenate S8192x16x2 2 [⟨S8192x16x1, (broadcastInDim S8192x16x1 ![0, 1] bcast_S8192x16_S8192x16x1_0_1 (mulf (subf (broadcastInDim S8192x16 ![] bcast_S_S8192x16 (constant S_ .f32 0x3F800000#32)) (res_main_v50 V0)) (res_main_v49 V0)))⟩, ⟨S8192x16x1, (broadcastInDim S8192x16x1 ![0, 1] bcast_S8192x16_S8192x16x1_0_1 (mulf (res_main_v50 V0) (res_main_v49 V0)))⟩] concatenates_S8192x16x1_S8192x16x1_S8192x16x2_d2) shapeCasts_S8192x16x2_S8192x32

set_option maxRecDepth 8192 in
/-- `main_v59`'s composed term of the arguments (named: it is used 2 times). -/
def res_main_v59 (V0 : Valuation τ sig (Elt F)) : (Proc.devRef .tc main_v59 : DevRef τ sig).ty.Contents (Elt F) :=
  extractStridedSlice S8192x32 ![0, 31] (res_main_v12 V0) slices_S8192x127_S8192x32_0_31

set_option maxRecDepth 8192 in
/-- `main_v67`'s composed term of the arguments (named: it is used 2 times). -/
def res_main_v67 (V0 : Valuation τ sig (Elt F)) : (Proc.devRef .tc main_v67 : DevRef τ sig).ty.Contents (Elt F) :=
  shapeCast _ (concatenate S8192x32x2 2 [⟨S8192x32x1, (broadcastInDim S8192x32x1 ![0, 1] bcast_S8192x32_S8192x32x1_0_1 (mulf (subf (broadcastInDim S8192x32 ![] bcast_S_S8192x32 (constant S_ .f32 0x3F800000#32)) (res_main_v59 V0)) (res_main_v58 V0)))⟩, ⟨S8192x32x1, (broadcastInDim S8192x32x1 ![0, 1] bcast_S8192x32_S8192x32x1_0_1 (mulf (res_main_v59 V0) (res_main_v58 V0)))⟩] concatenates_S8192x32x1_S8192x32x1_S8192x32x2_d2) shapeCasts_S8192x32x2_S8192x64

set_option maxRecDepth 8192 in
/-- `main_v68`'s composed term of the arguments (named: it is used 2 times). -/
def res_main_v68 (V0 : Valuation τ sig (Elt F)) : (Proc.devRef .tc main_v68 : DevRef τ sig).ty.Contents (Elt F) :=
  extractStridedSlice S8192x64 ![0, 63] (res_main_v12 V0) slices_S8192x127_S8192x64_0_63

set_option maxRecDepth 8192 in
/-- `main_v83`'s composed term of the arguments (named: it is used 2 times). -/
def res_main_v83 (V0 : Valuation τ sig (Elt F)) : (Proc.devRef .tc main_v83 : DevRef τ sig).ty.Contents (Elt F) :=
  Host.exp (subf (V0 (Proc.devRef .tc main_arg3)) (broadcastInDim S128x1000 ![0, 1] bcast_S128x1_S128x1000_0_1 (broadcastInDim S128x1 ![0] bcast_S128_S128x1_0 (maximumf (broadcastInDim S128 ![] bcast_S_S128 (constant S_ .f32 0xFF800000#32)) (Host.reduce FloatOps.maximumf (V0 (Proc.devRef .tc main_arg3)) (constant S_ .f32 0xFF800000#32) reducesTo_S128x1000_S128_d1 h_S_)))))

set_option maxRecDepth 8192 in
/-- `main_v76`'s composed term of the arguments: the leaf level. -/
def res_main_v76 (V0 : Valuation τ sig (Elt F)) : (Proc.devRef .tc main_v76 : DevRef τ sig).ty.Contents (Elt F) :=
  shapeCast _ (concatenate S8192x64x2 2 [⟨S8192x64x1, (broadcastInDim S8192x64x1 ![0, 1] bcast_S8192x64_S8192x64x1_0_1 (mulf (subf (broadcastInDim S8192x64 ![] bcast_S_S8192x64 (constant S_ .f32 0x3F800000#32)) (res_main_v68 V0)) (res_main_v67 V0)))⟩, ⟨S8192x64x1, (broadcastInDim S8192x64x1 ![0, 1] bcast_S8192x64_S8192x64x1_0_1 (mulf (res_main_v68 V0) (res_main_v67 V0)))⟩] concatenates_S8192x64x1_S8192x64x1_S8192x64x2_d2) shapeCasts_S8192x64x2_S8192x128

set_option maxRecDepth 8192 in
/-- `main_v87`'s composed term of the arguments: the leaf rows. -/
def res_main_v87 (V0 : Valuation τ sig (Elt F)) : (Proc.devRef .tc main_v87 : DevRef τ sig).ty.Contents (Elt F) :=
  Host.divf (res_main_v83 V0) (broadcastInDim S128x1000 ![0, 1] bcast_S128x1_S128x1000_0_1 (broadcastInDim S128x1 ![0] bcast_S128_S128x1_0 (Host.reduceAdd (res_main_v83 V0) (constant S_ .f32 0x00000000#32) reducesTo_S128x1000_S128_d1 h_S_)))

/-! ## The buffers' contents after each stretch of operations -/

/-- The contents a line of operations leaves, one stretch after the other. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- The device's buffer contents at launch. -/
def val0 (V0 : Valuation τ sig (Elt F)) : Valuation τ sig (Elt F) := V0
/-- The device's buffer contents after the first 1 stretch. -/
def val1 (V0 : Valuation τ sig (Elt F)) : Valuation τ sig (Elt F) := after gateOps (val0 V0)
/-- A buffer the stretch does not write keeps its contents through it. -/
theorem val1_keep (V0 : Valuation τ sig (Elt F)) (r : Ref sig .tc) (h : r ∉ gateOps_W) :
    val1 V0 (Proc.devRef .tc r) = val0 V0 (Proc.devRef .tc r) :=
  after_of_writes_sub gateOps _ gateOps_writes h
/-- The device's buffer contents after the first 2 stretches. -/
def val2 (V0 : Valuation τ sig (Elt F)) : Valuation τ sig (Elt F) := after level1Ops (val1 V0)
/-- A buffer the stretch does not write keeps its contents through it. -/
theorem val2_keep (V0 : Valuation τ sig (Elt F)) (r : Ref sig .tc) (h : r ∉ level1Ops_W) :
    val2 V0 (Proc.devRef .tc r) = val1 V0 (Proc.devRef .tc r) :=
  after_of_writes_sub level1Ops _ level1Ops_writes h
/-- The device's buffer contents after the first 3 stretches. -/
def val3 (V0 : Valuation τ sig (Elt F)) : Valuation τ sig (Elt F) := after level2Ops (val2 V0)
/-- A buffer the stretch does not write keeps its contents through it. -/
theorem val3_keep (V0 : Valuation τ sig (Elt F)) (r : Ref sig .tc) (h : r ∉ level2Ops_W) :
    val3 V0 (Proc.devRef .tc r) = val2 V0 (Proc.devRef .tc r) :=
  after_of_writes_sub level2Ops _ level2Ops_writes h
/-- The device's buffer contents after the first 4 stretches. -/
def val4 (V0 : Valuation τ sig (Elt F)) : Valuation τ sig (Elt F) := after level3Ops (val3 V0)
/-- A buffer the stretch does not write keeps its contents through it. -/
theorem val4_keep (V0 : Valuation τ sig (Elt F)) (r : Ref sig .tc) (h : r ∉ level3Ops_W) :
    val4 V0 (Proc.devRef .tc r) = val3 V0 (Proc.devRef .tc r) :=
  after_of_writes_sub level3Ops _ level3Ops_writes h
/-- The device's buffer contents after the first 5 stretches. -/
def val5 (V0 : Valuation τ sig (Elt F)) : Valuation τ sig (Elt F) := after level4Ops (val4 V0)
/-- A buffer the stretch does not write keeps its contents through it. -/
theorem val5_keep (V0 : Valuation τ sig (Elt F)) (r : Ref sig .tc) (h : r ∉ level4Ops_W) :
    val5 V0 (Proc.devRef .tc r) = val4 V0 (Proc.devRef .tc r) :=
  after_of_writes_sub level4Ops _ level4Ops_writes h
/-- The device's buffer contents after the first 6 stretches. -/
def val6 (V0 : Valuation τ sig (Elt F)) : Valuation τ sig (Elt F) := after level5Ops (val5 V0)
/-- A buffer the stretch does not write keeps its contents through it. -/
theorem val6_keep (V0 : Valuation τ sig (Elt F)) (r : Ref sig .tc) (h : r ∉ level5Ops_W) :
    val6 V0 (Proc.devRef .tc r) = val5 V0 (Proc.devRef .tc r) :=
  after_of_writes_sub level5Ops _ level5Ops_writes h
/-- The device's buffer contents after the first 7 stretches. -/
def val7 (V0 : Valuation τ sig (Elt F)) : Valuation τ sig (Elt F) := after level6Ops (val6 V0)
/-- A buffer the stretch does not write keeps its contents through it. -/
theorem val7_keep (V0 : Valuation τ sig (Elt F)) (r : Ref sig .tc) (h : r ∉ level6Ops_W) :
    val7 V0 (Proc.devRef .tc r) = val6 V0 (Proc.devRef .tc r) :=
  after_of_writes_sub level6Ops _ level6Ops_writes h
/-- The device's buffer contents after the first 8 stretches. -/
def val8 (V0 : Valuation τ sig (Elt F)) : Valuation τ sig (Elt F) := after level7Ops (val7 V0)
/-- A buffer the stretch does not write keeps its contents through it. -/
theorem val8_keep (V0 : Valuation τ sig (Elt F)) (r : Ref sig .tc) (h : r ∉ level7Ops_W) :
    val8 V0 (Proc.devRef .tc r) = val7 V0 (Proc.devRef .tc r) :=
  after_of_writes_sub level7Ops _ level7Ops_writes h
/-- The device's buffer contents after the first 9 stretches. -/
def val9 (V0 : Valuation τ sig (Elt F)) : Valuation τ sig (Elt F) := after leafRowOps (val8 V0)
/-- A buffer the stretch does not write keeps its contents through it. -/
theorem val9_keep (V0 : Valuation τ sig (Elt F)) (r : Ref sig .tc) (h : r ∉ leafRowOps_W) :
    val9 V0 (Proc.devRef .tc r) = val8 V0 (Proc.devRef .tc r) :=
  after_of_writes_sub leafRowOps _ leafRowOps_writes h
/-- The device's buffer contents after the first 10 stretches. -/
def val10 (V0 : Valuation τ sig (Elt F)) : Valuation τ sig (Elt F) := after mixOps (val9 V0)
/-- A buffer the stretch does not write keeps its contents through it. -/
theorem val10_keep (V0 : Valuation τ sig (Elt F)) (r : Ref sig .tc) (h : r ∉ mixOps_W) :
    val10 V0 (Proc.devRef .tc r) = val9 V0 (Proc.devRef .tc r) :=
  after_of_writes_sub mixOps _ mixOps_writes h

/-! ## Each named stage, stretch by stretch -/

theorem val0_arg3 (V0 : Valuation τ sig (Elt F)) : val0 V0 (no_index (Proc.devRef .tc main_arg3)) = V0 (Proc.devRef .tc main_arg3) := rfl
theorem val0_arg0 (V0 : Valuation τ sig (Elt F)) : val0 V0 (no_index (Proc.devRef .tc main_arg0)) = V0 (Proc.devRef .tc main_arg0) := rfl
theorem val0_arg1 (V0 : Valuation τ sig (Elt F)) : val0 V0 (no_index (Proc.devRef .tc main_arg1)) = V0 (Proc.devRef .tc main_arg1) := rfl
theorem val0_arg2 (V0 : Valuation τ sig (Elt F)) : val0 V0 (no_index (Proc.devRef .tc main_arg2)) = V0 (Proc.devRef .tc main_arg2) := rfl
set_option maxRecDepth 8192 in
set_option maxHeartbeats 2000000 in
theorem val1_v12 (V0 : Valuation τ sig (Elt F)) : val1 V0 (no_index (Proc.devRef .tc main_v12)) = res_main_v12 V0 := by
  unfold val1
  simp only [gateOps]
  after_results
  rw [val0_arg0, val0_arg1, val0_arg2]
  try rfl
theorem val1_arg3 (V0 : Valuation τ sig (Elt F)) : val1 V0 (no_index (Proc.devRef .tc main_arg3)) = V0 (Proc.devRef .tc main_arg3) :=
  (val1_keep V0 main_arg3 (by decide)).trans (val0_arg3 V0)
theorem val2_v12 (V0 : Valuation τ sig (Elt F)) : val2 V0 (no_index (Proc.devRef .tc main_v12)) = res_main_v12 V0 :=
  (val2_keep V0 main_v12 (by decide)).trans (val1_v12 V0)
theorem val2_arg3 (V0 : Valuation τ sig (Elt F)) : val2 V0 (no_index (Proc.devRef .tc main_arg3)) = V0 (Proc.devRef .tc main_arg3) :=
  (val2_keep V0 main_arg3 (by decide)).trans (val1_arg3 V0)
set_option maxRecDepth 8192 in
set_option maxHeartbeats 2000000 in
theorem val2_v22 (V0 : Valuation τ sig (Elt F)) : val2 V0 (no_index (Proc.devRef .tc main_v22)) = res_main_v22 V0 := by
  unfold val2
  simp only [level1Ops]
  after_results
  rw [val1_v12]
  try rfl
theorem val3_v12 (V0 : Valuation τ sig (Elt F)) : val3 V0 (no_index (Proc.devRef .tc main_v12)) = res_main_v12 V0 :=
  (val3_keep V0 main_v12 (by decide)).trans (val2_v12 V0)
theorem val3_arg3 (V0 : Valuation τ sig (Elt F)) : val3 V0 (no_index (Proc.devRef .tc main_arg3)) = V0 (Proc.devRef .tc main_arg3) :=
  (val3_keep V0 main_arg3 (by decide)).trans (val2_arg3 V0)
set_option maxRecDepth 8192 in
set_option maxHeartbeats 2000000 in
theorem val3_v31 (V0 : Valuation τ sig (Elt F)) : val3 V0 (no_index (Proc.devRef .tc main_v31)) = res_main_v31 V0 := by
  unfold val3
  simp only [level2Ops]
  after_results
  rw [val2_v12, val2_v22]
  try rfl
theorem val4_v12 (V0 : Valuation τ sig (Elt F)) : val4 V0 (no_index (Proc.devRef .tc main_v12)) = res_main_v12 V0 :=
  (val4_keep V0 main_v12 (by decide)).trans (val3_v12 V0)
theorem val4_arg3 (V0 : Valuation τ sig (Elt F)) : val4 V0 (no_index (Proc.devRef .tc main_arg3)) = V0 (Proc.devRef .tc main_arg3) :=
  (val4_keep V0 main_arg3 (by decide)).trans (val3_arg3 V0)
set_option maxRecDepth 8192 in
set_option maxHeartbeats 2000000 in
theorem val4_v40 (V0 : Valuation τ sig (Elt F)) : val4 V0 (no_index (Proc.devRef .tc main_v40)) = res_main_v40 V0 := by
  unfold val4
  simp only [level3Ops]
  after_results
  rw [val3_v12, val3_v31]
  try rfl
theorem val5_v12 (V0 : Valuation τ sig (Elt F)) : val5 V0 (no_index (Proc.devRef .tc main_v12)) = res_main_v12 V0 :=
  (val5_keep V0 main_v12 (by decide)).trans (val4_v12 V0)
theorem val5_arg3 (V0 : Valuation τ sig (Elt F)) : val5 V0 (no_index (Proc.devRef .tc main_arg3)) = V0 (Proc.devRef .tc main_arg3) :=
  (val5_keep V0 main_arg3 (by decide)).trans (val4_arg3 V0)
set_option maxRecDepth 8192 in
set_option maxHeartbeats 2000000 in
theorem val5_v49 (V0 : Valuation τ sig (Elt F)) : val5 V0 (no_index (Proc.devRef .tc main_v49)) = res_main_v49 V0 := by
  unfold val5
  simp only [level4Ops]
  after_results
  rw [val4_v12, val4_v40]
  try rfl
theorem val6_v12 (V0 : Valuation τ sig (Elt F)) : val6 V0 (no_index (Proc.devRef .tc main_v12)) = res_main_v12 V0 :=
  (val6_keep V0 main_v12 (by decide)).trans (val5_v12 V0)
theorem val6_arg3 (V0 : Valuation τ sig (Elt F)) : val6 V0 (no_index (Proc.devRef .tc main_arg3)) = V0 (Proc.devRef .tc main_arg3) :=
  (val6_keep V0 main_arg3 (by decide)).trans (val5_arg3 V0)
set_option maxRecDepth 8192 in
set_option maxHeartbeats 2000000 in
theorem val6_v58 (V0 : Valuation τ sig (Elt F)) : val6 V0 (no_index (Proc.devRef .tc main_v58)) = res_main_v58 V0 := by
  unfold val6
  simp only [level5Ops]
  after_results
  rw [val5_v12, val5_v49]
  try rfl
theorem val7_v12 (V0 : Valuation τ sig (Elt F)) : val7 V0 (no_index (Proc.devRef .tc main_v12)) = res_main_v12 V0 :=
  (val7_keep V0 main_v12 (by decide)).trans (val6_v12 V0)
theorem val7_arg3 (V0 : Valuation τ sig (Elt F)) : val7 V0 (no_index (Proc.devRef .tc main_arg3)) = V0 (Proc.devRef .tc main_arg3) :=
  (val7_keep V0 main_arg3 (by decide)).trans (val6_arg3 V0)
set_option maxRecDepth 8192 in
set_option maxHeartbeats 2000000 in
theorem val7_v67 (V0 : Valuation τ sig (Elt F)) : val7 V0 (no_index (Proc.devRef .tc main_v67)) = res_main_v67 V0 := by
  unfold val7
  simp only [level6Ops]
  after_results
  rw [val6_v12, val6_v58]
  try rfl
theorem val8_v12 (V0 : Valuation τ sig (Elt F)) : val8 V0 (no_index (Proc.devRef .tc main_v12)) = res_main_v12 V0 :=
  (val8_keep V0 main_v12 (by decide)).trans (val7_v12 V0)
theorem val8_arg3 (V0 : Valuation τ sig (Elt F)) : val8 V0 (no_index (Proc.devRef .tc main_arg3)) = V0 (Proc.devRef .tc main_arg3) :=
  (val8_keep V0 main_arg3 (by decide)).trans (val7_arg3 V0)
set_option maxRecDepth 8192 in
set_option maxHeartbeats 2000000 in
theorem val8_v76 (V0 : Valuation τ sig (Elt F)) : val8 V0 (no_index (Proc.devRef .tc main_v76)) = res_main_v76 V0 := by
  unfold val8
  simp only [level7Ops]
  after_results
  rw [val7_v12, val7_v67]
  try rfl
theorem val9_v76 (V0 : Valuation τ sig (Elt F)) : val9 V0 (no_index (Proc.devRef .tc main_v76)) = res_main_v76 V0 :=
  (val9_keep V0 main_v76 (by decide)).trans (val8_v76 V0)
set_option maxRecDepth 8192 in
set_option maxHeartbeats 2000000 in
theorem val9_v87 (V0 : Valuation τ sig (Elt F)) : val9 V0 (no_index (Proc.devRef .tc main_v87)) = res_main_v87 V0 := by
  unfold val9
  simp only [leafRowOps]
  after_results
  rw [val8_arg3]
  try rfl
set_option maxRecDepth 8192 in
theorem val10_v88 (V0 : Valuation τ sig (Elt F)) : val10 V0 (no_index (Proc.devRef .tc main_v88)) = Host.dotGeneral dot_S8192x128_S128x1000_S8192x1000_1_0_0_1_n_n none (res_main_v76 V0) (res_main_v87 V0) := by
  unfold val10
  simp only [mixOps]
  after_results
  rw [val9_v76, val9_v87]
  try rfl

/-! ## The whole line -/

/-- The whole line is its ten stretches in order. -/
theorem ops_split : (ops : List (HloOp τ sig (Elt F))) = gateOps ++ level1Ops ++ level2Ops ++ level3Ops ++ level4Ops ++ level5Ops ++ level6Ops ++ level7Ops ++ leafRowOps ++ mixOps := rfl

/-- So what the whole line leaves is what the last stretch leaves. -/
theorem after_ops (V0 : Valuation τ sig (Elt F)) : after (ops (F := F)) V0 = val10 V0 := by
  rw [ops_split]
  simp only [after_append]
  rfl

/-- A buffer no stretch writes ends as launched. -/
theorem kept (V0 : Valuation τ sig (Elt F)) (r : Ref sig .tc) (h1 : r ∉ gateOps_W) (h2 : r ∉ level1Ops_W) (h3 : r ∉ level2Ops_W) (h4 : r ∉ level3Ops_W) (h5 : r ∉ level4Ops_W) (h6 : r ∉ level5Ops_W) (h7 : r ∉ level6Ops_W) (h8 : r ∉ level7Ops_W) (h9 : r ∉ leafRowOps_W) (h10 : r ∉ mixOps_W) :
    val10 V0 (Proc.devRef .tc r) = V0 (Proc.devRef .tc r) :=
  (val10_keep V0 r h10).trans ((val9_keep V0 r h9).trans ((val8_keep V0 r h8).trans ((val7_keep V0 r h7).trans ((val6_keep V0 r h6).trans ((val5_keep V0 r h5).trans ((val4_keep V0 r h4).trans ((val3_keep V0 r h3).trans ((val2_keep V0 r h2).trans ((val1_keep V0 r h1))))))))))

/-! ## The run -/

/-- Every operation determines its results. -/
theorem ops_fresh : (ops : List (HloOp τ sig (Elt F))).Forall fun op => op.fresh = ∅ := by
  simp only [List.Forall]; repeat' constructor

set_option maxRecDepth 8192 in
/-- On every device, from any memory with zero counters: every weakly fair execution of @main terminates with the
    result at the product of the leaf level with the leaf rows, each the operations' composed term of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = Host.dotGeneral dot_S8192x128_S128x1000_S8192x1000_1_0_0_1_n_n none (res_main_v76 (launchContents m c)) (res_main_v87 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v88).trans ((congrFun (after_ops _) _).trans (val10_v88 _)),
      (h c main_arg0).trans ((congrFun (after_ops _) _).trans (kept _ main_arg0 (by decide) (by decide) (by decide) (by decide) (by decide) (by decide) (by decide) (by decide) (by decide) (by decide))),
      (h c main_arg1).trans ((congrFun (after_ops _) _).trans (kept _ main_arg1 (by decide) (by decide) (by decide) (by decide) (by decide) (by decide) (by decide) (by decide) (by decide) (by decide))),
      (h c main_arg2).trans ((congrFun (after_ops _) _).trans (kept _ main_arg2 (by decide) (by decide) (by decide) (by decide) (by decide) (by decide) (by decide) (by decide) (by decide) (by decide))),
      (h c main_arg3).trans ((congrFun (after_ops _) _).trans (kept _ main_arg3 (by decide) (by decide) (by decide) (by decide) (by decide) (by decide) (by decide) (by decide) (by decide) (by decide)))⟩)
    (run_seq scopedRefs_eq scopedSems_eq defs main (fun _ => ops) main_eq (fun _ => ops_sub) m ρ
      (fun _ => List.forall_iff_forall_mem.mp ops_fresh))

end Cert.ReferenceIdeal.RefRun

end
-- ==== Proof.TreeSpec.lean ====
/-
  The soft decision tree as one function of the argument arrays, index by index, on the extended reals.

  A row of inputs `x` meets 127 internal nodes in heap order (root 0, then its two children, then four
  grandchildren, …). Node `n` has the gate probability `σ(1 · (Σ_f x f · w n f + b n))`, `σ` the logistic
  function. The probability of arriving at a node of level `l + 1` in position `j` is the probability of
  arriving at its parent (level `l`, position `j / 2`) times the parent's gate `q` when `j` is odd (right
  child) and `1 - q` when `j` is even (left child); the parent's gate sits at heap position `2^l - 1 + j / 2`.
  Seven levels give the 128 leaf arrival probabilities, and the result is their mix of the leaf rows `D`.
-/
import Idealize.ShloMosaic.PureOps.Ideal
import Idealize.ShloMosaic.PureOps.Ideal.Laws
import Idealize.ShloMosaic.Lib.ValueIdx

noncomputable section

namespace Cert.SoftTree

open Idealize.ShloMosaic Idealize.ShloMosaic.ValueIdx

/-- The float literal `1.0`, kept as its word: both programs spell it so. -/
abbrev one : EReal := Ideal.ofBits .f32 0x3F800000#32

/-- One level of the tree: from the arrival probabilities `prev` of a level whose gates start at heap
    position `off`, the arrival probabilities of the next level (left child at even, right child at odd positions). -/
def step (off : ℕ) (q prev : ℕ → EReal) : ℕ → EReal := fun j =>
  (if j % 2 = 0 then one - q (off + j / 2) else q (off + j / 2)) * prev (j / 2)

/-- The arrival probabilities at the 128 leaves, from the gates `q` in heap order: seven levels from the root's `1`. -/
def leaf (q : ℕ → EReal) : ℕ → EReal :=
  step 63 q (step 31 q (step 15 q (step 7 q (step 3 q (step 1 q (step 0 q (fun _ => one)))))))

/-- The gate probability of node `n` for one row `x` of inputs (`0` past the last node, never read). -/
def gateOf (x : Fin 2048 → EReal) (w : Fin 127 → Fin 2048 → EReal) (b : Fin 127 → EReal) (n : ℕ) : EReal :=
  if h : n < 127 then Ideal.logistic (one * ((∑ f : Fin 2048, x f * w ⟨n, h⟩ f) + b ⟨n, h⟩)) else 0

/-- One entry of the result from one row `x` of inputs and one column `d` of the leaf rows. -/
def mix (x : Fin 2048 → EReal) (w : Fin 127 → Fin 2048 → EReal) (b : Fin 127 → EReal) (d : Fin 128 → EReal) : EReal :=
  ∑ j : Fin 128, leaf (gateOf x w b) j.val * d j

/-- The whole result array: entry `(r, k)` mixes column `k` of the leaf rows `D` by row `r`'s leaf arrival probabilities. -/
def G (x : (⟨2, ![8192, 2048]⟩ : Shape).Idx → EReal) (w : (⟨2, ![127, 2048]⟩ : Shape).Idx → EReal)
    (b : (⟨1, ![127]⟩ : Shape).Idx → EReal) (D : (⟨2, ![128, 1000]⟩ : Shape).Idx → EReal) :
    (⟨2, ![8192, 1000]⟩ : Shape).Idx → EReal := fun i =>
  mix (fun f => x (ix2 (i 0) f)) (fun n f => w (ix2 n f)) (fun n => b (ix1 n)) (fun j => D (ix2 j (i 1)))

/-! ## The leaf rows: each row of the leaf parameters through a softmax

Both programs compute the leaf rows `D` from the leaf parameters by the same chain of whole-array operations
(subtract the row maximum, exponentiate, divide by the row sum); the chain is carried as one function and never opened. -/

theorem reducesRows : (⟨2, ![128, 1000]⟩ : Shape).ReducesTo [1] ⟨1, ![128]⟩ := by decide
theorem scalarPos : 0 < (⟨0, ![]⟩ : Shape).numel := by decide
theorem bcScalar : (⟨0, ![]⟩ : Shape).BroadcastsInDim ⟨1, ![128]⟩ (![] : Fin 0 → Fin 1) := by decide
theorem bcColumn : (⟨1, ![128]⟩ : Shape).BroadcastsInDim ⟨2, ![128, 1]⟩ (![0] : Fin 1 → Fin 2) := by decide
theorem bcRows : (⟨2, ![128, 1]⟩ : Shape).BroadcastsInDim ⟨2, ![128, 1000]⟩ (![0, 1] : Fin 2 → Fin 2) := by decide

/-- `exp (a - rowmax a)`, row by row. -/
def expShift (a : FVec Ideal ⟨2, ![128, 1000]⟩ .f32) : FVec Ideal ⟨2, ![128, 1000]⟩ .f32 :=
  Host.exp (subf a (broadcastInDim ⟨2, ![128, 1000]⟩ ![0, 1] bcRows (broadcastInDim ⟨2, ![128, 1]⟩ ![0] bcColumn
    (maximumf (broadcastInDim ⟨1, ![128]⟩ ![] bcScalar (constant ⟨0, ![]⟩ .f32 0xFF800000#32))
      (Host.reduce FloatOps.maximumf a (constant ⟨0, ![]⟩ .f32 0xFF800000#32) reducesRows scalarPos)))))

/-- The leaf rows: the softmax of each row of the leaf parameters. -/
def dists (a : FVec Ideal ⟨2, ![128, 1000]⟩ .f32) : FVec Ideal ⟨2, ![128, 1000]⟩ .f32 :=
  Host.divf (expShift a) (broadcastInDim ⟨2, ![128, 1000]⟩ ![0, 1] bcRows (broadcastInDim ⟨2, ![128, 1]⟩ ![0] bcColumn
    (Host.reduceAdd (expShift a) (constant ⟨0, ![]⟩ .f32 0x00000000#32) reducesRows scalarPos)))

end Cert.SoftTree

end
-- ==== Proof.LibInterleave.lean ====
/-
  Two arrays interleaved along the last axis, read at an index (the layout of `jnp.stack([a, b], axis=-1).reshape(R, 2n)`).

  Two `[R, n]` arrays each get a trailing unit axis (`[R, n, 1]`, by a shape cast or by a broadcast), the two are
  concatenated along it (`[R, n, 2]`), and the result is re-read row-major as `[R, 2n]`. Entry `(r, j)` of that
  array comes from position `j / 2` of the first array when `j` is even and of the second when `j` is odd. The
  lemmas are generic in the extents `R` and `n`.
-/
import Idealize.ShloMosaic.PureOps.Ideal
import Idealize.ShloMosaic.Lib.ValueIdx
import Idealize.ShloMosaic.Lib.ValueLayout
import Idealize.ShloMosaic.Lib.Pipeline.Value

noncomputable section

namespace Cert.SoftTree

open Idealize.ShloMosaic Idealize.ShloMosaic.ValueIdx

variable {α : Type}

/-- Two `[R, n, 1]` arrays concatenated along the last axis and re-read as `[R, 2n]`: entry `(r, j)` is the first
    array's entry `(r, j / 2)` for even `j` and the second's for odd `j`. -/
theorem interleave_apply {R n n2 : ℕ} (h2 : n2 = 2 * n) (A B : (⟨3, ![R, n, 1]⟩ : Shape).Idx → α)
    (hc : Shape.Concatenates [(⟨3, ![R, n, 1]⟩ : Shape), (⟨3, ![R, n, 1]⟩ : Shape)] (⟨3, ![R, n, 2]⟩ : Shape) 2)
    (hs : (⟨3, ![R, n, 2]⟩ : Shape).ShapeCasts ⟨2, ![R, n2]⟩) (r : Fin R) (j : Fin n2) (i : Fin n) (hi : i.val = j.val / 2) :
    shapeCast (⟨2, ![R, n2]⟩ : Shape) (concatenate (⟨3, ![R, n, 2]⟩ : Shape) 2 [⟨⟨3, ![R, n, 1]⟩, A⟩, ⟨⟨3, ![R, n, 1]⟩, B⟩] hc) hs (ix2 r j)
      = if j.val % 2 = 0 then A (ix3 r i (0 : Fin 1)) else B (ix3 r i (0 : Fin 1)) := by
  by_cases h : j.val % 2 = 0
  · rw [if_pos h]
    refine (shapeCast_apply _ hs (ix2 r j) (ix3 r i (0 : Fin 2)) ?_).trans ?_
    · rw [Shape.rowMajor_val_three, Shape.rowMajor_val_two]
      show (r.val * n + i.val) * 2 + 0 = r.val * n2 + j.val
      subst h2; rw [hi]; have := Nat.div_add_mod j.val 2; rw [Nat.add_mul, Nat.mul_assoc, Nat.mul_comm n 2]; omega
    · exact concatenate_pair_apply_left (2 : Fin 3) A B hc (ix3 r i (0 : Fin 2)) rfl (ix3 r i (0 : Fin 1))
        (fun b => by match b with | ⟨0, _⟩ => rfl | ⟨1, _⟩ => rfl | ⟨2, _⟩ => rfl)
  · rw [if_neg h]
    refine (shapeCast_apply _ hs (ix2 r j) (ix3 r i (1 : Fin 2)) ?_).trans ?_
    · rw [Shape.rowMajor_val_three, Shape.rowMajor_val_two]
      show (r.val * n + i.val) * 2 + 1 = r.val * n2 + j.val
      subst h2; rw [hi]; have := Nat.div_add_mod j.val 2; rw [Nat.add_mul, Nat.mul_assoc, Nat.mul_comm n 2]; omega
    · exact concatenate_pair_apply_right (2 : Fin 3) A B hc (ix3 r i (1 : Fin 2)) rfl rfl (ix3 r i (0 : Fin 1))
        (fun b hb => by match b, hb with | ⟨0, _⟩, _ => rfl | ⟨1, _⟩, _ => rfl | ⟨2, _⟩, hb => exact absurd rfl hb)
        rfl

/-- An `[R, n]` array re-read as `[R, n, 1]` keeps entry `(r, i)` at `(r, i, 0)`. -/
theorem addUnit_cast_apply {R n : ℕ} (X : (⟨2, ![R, n]⟩ : Shape).Idx → α)
    (h : (⟨2, ![R, n]⟩ : Shape).ShapeCasts ⟨3, ![R, n, 1]⟩) (r : Fin R) (i : Fin n) (u : Fin 1) :
    shapeCast (⟨3, ![R, n, 1]⟩ : Shape) X h (ix3 r i u) = X (ix2 r i) :=
  shapeCast_apply X h _ _ (by
    have hu : u.val = 0 := by omega
    rw [Shape.rowMajor_val_three, Shape.rowMajor_val_two]
    show r.val * n + i.val = (r.val * n + i.val) * 1 + u.val
    rw [hu]; omega)

/-- An `[R, n]` array broadcast along a new trailing unit axis keeps entry `(r, i)` at `(r, i, 0)`. -/
theorem addUnit_bcast_apply {R n : ℕ} (X : (⟨2, ![R, n]⟩ : Shape).Idx → α)
    (h : (⟨2, ![R, n]⟩ : Shape).BroadcastsInDim ⟨3, ![R, n, 1]⟩ (![0, 1] : Fin 2 → Fin 3)) (r : Fin R) (i : Fin n) (u : Fin 1) :
    broadcastInDim (⟨3, ![R, n, 1]⟩ : Shape) (![0, 1] : Fin 2 → Fin 3) h X (ix3 r i u) = X (ix2 r i) := by
  refine broadcastInDim_apply _ h X (ix3 r i u) (ix2 r i) fun a => ?_
  match a with
  | ⟨0, _⟩ =>
    show r.val = if R = 1 then 0 else r.val
    split
    · have := r.isLt; omega
    · rfl
  | ⟨1, _⟩ =>
    show i.val = if n = 1 then 0 else i.val
    split
    · have := i.isLt; omega
    · rfl

end Cert.SoftTree

end
-- ==== Proof.TreeLevel.lean ====
/-
  One level of the tree, as each program computes it, is `SoftTree.step`.

  From a level's arrival probabilities `prev` (`[R, n]`) and the level's gates `sl` (the `n` columns of the gate
  array that start at the level's heap offset), both programs form the left-child values `(1 - sl) · prev` and the
  right-child values `sl · prev` and interleave them. The kernel adds the trailing unit axis by a shape cast and
  splats the `1`; the reference adds it by a broadcast and broadcasts a scalar constant `1`.
-/
import proofs.«153887_j58325655879930_2_alg».proof.Proof.TreeSpec
import proofs.«153887_j58325655879930_2_alg».proof.Proof.LibInterleave

noncomputable section

namespace Cert.SoftTree

open Idealize.ShloMosaic Idealize.ShloMosaic.ValueIdx

/-- The kernel's level: entry `(r, j)` is `(c - sl (r, j/2)) · prev (r, j/2)` for even `j` and `sl (r, j/2) · prev (r, j/2)`
    for odd `j`, `c` the splatted constant. -/
theorem levelK_apply {R n n2 : ℕ} (h2 : n2 = 2 * n) (c : EReal) (sl prev : FVec Ideal ⟨2, ![R, n]⟩ .f32)
    (hsc : (⟨2, ![R, n]⟩ : Shape).ShapeCasts ⟨3, ![R, n, 1]⟩)
    (hc : Shape.Concatenates [(⟨3, ![R, n, 1]⟩ : Shape), (⟨3, ![R, n, 1]⟩ : Shape)] (⟨3, ![R, n, 2]⟩ : Shape) 2)
    (hs : (⟨3, ![R, n, 2]⟩ : Shape).ShapeCasts ⟨2, ![R, n2]⟩) (r : Fin R) (j : Fin n2) (i : Fin n) (hi : i.val = j.val / 2) :
    shapeCast (⟨2, ![R, n2]⟩ : Shape) (concatenate (⟨3, ![R, n, 2]⟩ : Shape) 2
        [⟨⟨3, ![R, n, 1]⟩, shapeCast (⟨3, ![R, n, 1]⟩ : Shape) (mulf (subf (broadcast (⟨2, ![R, n]⟩ : Shape) c) sl) prev) hsc⟩,
         ⟨⟨3, ![R, n, 1]⟩, shapeCast (⟨3, ![R, n, 1]⟩ : Shape) (mulf sl prev) hsc⟩] hc) hs (ix2 r j)
      = (if j.val % 2 = 0 then c - sl (ix2 r i) else sl (ix2 r i)) * prev (ix2 r i) := by
  refine (interleave_apply h2 _ _ hc hs r j i hi).trans ?_
  rw [addUnit_cast_apply, addUnit_cast_apply]
  by_cases h : j.val % 2 = 0
  · rw [if_pos h, if_pos h]; rfl
  · rw [if_neg h, if_neg h]; rfl

/-- The reference's level: the same entries, the unit axis added by a broadcast and the `1` a broadcast scalar constant. -/
theorem levelR_apply {R n n2 : ℕ} (h2 : n2 = 2 * n) (w : BitVec 32) (sl prev : FVec Ideal ⟨2, ![R, n]⟩ .f32)
    (hb0 : (⟨0, ![]⟩ : Shape).BroadcastsInDim ⟨2, ![R, n]⟩ (![] : Fin 0 → Fin 2))
    (hb : (⟨2, ![R, n]⟩ : Shape).BroadcastsInDim ⟨3, ![R, n, 1]⟩ (![0, 1] : Fin 2 → Fin 3))
    (hc : Shape.Concatenates [(⟨3, ![R, n, 1]⟩ : Shape), (⟨3, ![R, n, 1]⟩ : Shape)] (⟨3, ![R, n, 2]⟩ : Shape) 2)
    (hs : (⟨3, ![R, n, 2]⟩ : Shape).ShapeCasts ⟨2, ![R, n2]⟩) (r : Fin R) (j : Fin n2) (i : Fin n) (hi : i.val = j.val / 2) :
    shapeCast (⟨2, ![R, n2]⟩ : Shape) (concatenate (⟨3, ![R, n, 2]⟩ : Shape) 2
        [⟨⟨3, ![R, n, 1]⟩, broadcastInDim (⟨3, ![R, n, 1]⟩ : Shape) (![0, 1] : Fin 2 → Fin 3) hb
            (mulf (subf (broadcastInDim (⟨2, ![R, n]⟩ : Shape) (![] : Fin 0 → Fin 2) hb0 (constant (F := Ideal) ⟨0, ![]⟩ .f32 w)) sl) prev)⟩,
         ⟨⟨3, ![R, n, 1]⟩, broadcastInDim (⟨3, ![R, n, 1]⟩ : Shape) (![0, 1] : Fin 2 → Fin 3) hb (mulf sl prev)⟩] hc) hs (ix2 r j)
      = (if j.val % 2 = 0 then Ideal.ofBits .f32 w - sl (ix2 r i) else sl (ix2 r i)) * prev (ix2 r i) := by
  refine (interleave_apply h2 _ _ hc hs r j i hi).trans ?_
  rw [addUnit_bcast_apply, addUnit_bcast_apply]
  by_cases h : j.val % 2 = 0
  · rw [if_pos h, if_pos h]; rfl
  · rw [if_neg h, if_neg h]; rfl

/-- A level read through row functions: when the gate slice is `q r` from the level's offset and the level below is
    `f r`, the entry the programs compute is the next level's `step`. -/
theorem step_of_entries (off : ℕ) (q f : ℕ → EReal) (j i : ℕ) (hi : i = j / 2) (s p : EReal) (hs : s = q (off + i)) (hp : p = f i) :
    (if j % 2 = 0 then one - s else s) * p = step off q f j := by
  subst hi hs hp; rfl

/-- The kernel's level with the gate slice cut from the gate array `P` at the level's offset: when `P`'s row `r` is `q r`
    and the level below is `f r`, entry `(r, j)` is `step off (q r) (f r) j`. -/
theorem levelK_step {R n n2 : ℕ} (h2 : n2 = 2 * n) (off : ℕ) (c : EReal) (P : FVec Ideal ⟨2, ![R, 127]⟩ .f32)
    (prev : FVec Ideal ⟨2, ![R, n]⟩ .f32)
    (hsl : (⟨2, ![R, 127]⟩ : Shape).Slices ![0, off] ⟨2, ![R, n]⟩)
    (hsc : (⟨2, ![R, n]⟩ : Shape).ShapeCasts ⟨3, ![R, n, 1]⟩)
    (hc : Shape.Concatenates [(⟨3, ![R, n, 1]⟩ : Shape), (⟨3, ![R, n, 1]⟩ : Shape)] (⟨3, ![R, n, 2]⟩ : Shape) 2)
    (hs : (⟨3, ![R, n, 2]⟩ : Shape).ShapeCasts ⟨2, ![R, n2]⟩)
    (q f : Fin R → ℕ → EReal) (hone : c = one) (hP : ∀ (r : Fin R) (k : Fin 127), P (ix2 r k) = q r k.val)
    (hprev : ∀ (r : Fin R) (i : Fin n), prev (ix2 r i) = f r i.val) (hoff : off + n ≤ 127) (r : Fin R) (j : Fin n2) :
    shapeCast (⟨2, ![R, n2]⟩ : Shape) (concatenate (⟨3, ![R, n, 2]⟩ : Shape) 2
        [⟨⟨3, ![R, n, 1]⟩, shapeCast (⟨3, ![R, n, 1]⟩ : Shape)
            (mulf (subf (broadcast (⟨2, ![R, n]⟩ : Shape) c) (extractStridedSlice (⟨2, ![R, n]⟩ : Shape) ![0, off] P hsl)) prev) hsc⟩,
         ⟨⟨3, ![R, n, 1]⟩, shapeCast (⟨3, ![R, n, 1]⟩ : Shape)
            (mulf (extractStridedSlice (⟨2, ![R, n]⟩ : Shape) ![0, off] P hsl) prev) hsc⟩] hc) hs (ix2 r j)
      = step off (q r) (f r) j.val := by
  have hj : j.val < 2 * n := h2 ▸ j.isLt
  have hi : j.val / 2 < n := by omega
  have hk : off + j.val / 2 < 127 := by omega
  refine (levelK_apply h2 c _ prev hsc hc hs r j ⟨j.val / 2, hi⟩ rfl).trans ?_
  rw [slice2_axis1_apply off P hsl r ⟨j.val / 2, hi⟩ ⟨off + j.val / 2, hk⟩ rfl, hP, hprev, hone]
  rfl

/-- The reference's level with the gate slice cut from the gate array `P`: the same entry. -/
theorem levelR_step {R n n2 : ℕ} (h2 : n2 = 2 * n) (off : ℕ) (P : FVec Ideal ⟨2, ![R, 127]⟩ .f32)
    (prev : FVec Ideal ⟨2, ![R, n]⟩ .f32)
    (hsl : (⟨2, ![R, 127]⟩ : Shape).Slices ![0, off] ⟨2, ![R, n]⟩)
    (hb0 : (⟨0, ![]⟩ : Shape).BroadcastsInDim ⟨2, ![R, n]⟩ (![] : Fin 0 → Fin 2))
    (hb : (⟨2, ![R, n]⟩ : Shape).BroadcastsInDim ⟨3, ![R, n, 1]⟩ (![0, 1] : Fin 2 → Fin 3))
    (hc : Shape.Concatenates [(⟨3, ![R, n, 1]⟩ : Shape), (⟨3, ![R, n, 1]⟩ : Shape)] (⟨3, ![R, n, 2]⟩ : Shape) 2)
    (hs : (⟨3, ![R, n, 2]⟩ : Shape).ShapeCasts ⟨2, ![R, n2]⟩)
    (q f : Fin R → ℕ → EReal) (hP : ∀ (r : Fin R) (k : Fin 127), P (ix2 r k) = q r k.val)
    (hprev : ∀ (r : Fin R) (i : Fin n), prev (ix2 r i) = f r i.val) (hoff : off + n ≤ 127) (r : Fin R) (j : Fin n2) :
    shapeCast (⟨2, ![R, n2]⟩ : Shape) (concatenate (⟨3, ![R, n, 2]⟩ : Shape) 2
        [⟨⟨3, ![R, n, 1]⟩, broadcastInDim (⟨3, ![R, n, 1]⟩ : Shape) (![0, 1] : Fin 2 → Fin 3) hb
            (mulf (subf (broadcastInDim (⟨2, ![R, n]⟩ : Shape) (![] : Fin 0 → Fin 2) hb0 (constant (F := Ideal) ⟨0, ![]⟩ .f32 0x3F800000#32))
              (extractStridedSlice (⟨2, ![R, n]⟩ : Shape) ![0, off] P hsl)) prev)⟩,
         ⟨⟨3, ![R, n, 1]⟩, broadcastInDim (⟨3, ![R, n, 1]⟩ : Shape) (![0, 1] : Fin 2 → Fin 3) hb
            (mulf (extractStridedSlice (⟨2, ![R, n]⟩ : Shape) ![0, off] P hsl) prev)⟩] hc) hs (ix2 r j)
      = step off (q r) (f r) j.val := by
  have hj : j.val < 2 * n := h2 ▸ j.isLt
  have hi : j.val / 2 < n := by omega
  have hk : off + j.val / 2 < 127 := by omega
  refine (levelR_apply h2 0x3F800000#32 _ prev hb0 hb hc hs r j ⟨j.val / 2, hi⟩ rfl).trans ?_
  rw [slice2_axis1_apply off P hsl r ⟨j.val / 2, hi⟩ ⟨off + j.val / 2, hk⟩ rfl, hP, hprev]
  rfl

end Cert.SoftTree

end
-- ==== Proof.KernelPayload.lean ====
/-
  The kernel body's stored value at an index: entry `(p, k)` of the block a grid point writes is the tree's mix of
  column `k` of the leaf rows by the leaf arrival probabilities of row `p` of the point's input block.

  The body computes the 127 gates of every row by one matrix product with the transposed node weights, adds the
  one-row bias, scales by the literal one and applies the logistic function; builds the seven levels one after the
  other, each from the level below and a column slice of the gates; and multiplies the 128 leaf arrival
  probabilities into the leaf rows by a second matrix product. A change of float format is the identity on the
  extended reals, and a matrix product into a zero accumulator is the plain sum of products.
-/
import proofs.«153887_j58325655879930_2_alg».proof.Proof.Gen.KernelIdeal.Skeleton
import proofs.«153887_j58325655879930_2_alg».proof.Proof.TreeSpec
import proofs.«153887_j58325655879930_2_alg».proof.Proof.TreeLevel
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TreeValue

open Cert.KernelIdeal Cert.KernelIdeal.Gen Idealize.ShloMosaic Idealize.ShloMosaic.ValueIdx
open Cert.SoftTree (one step leaf gateOf mix)

/-! ## The two matrix products as sums over the contracted coordinate -/

/-- The gate product's dimension numbers: rows of the input block against columns of the transposed weights. -/
abbrev gateDims := dot_S1024x2048_S2048x127_S1024x127_1_0_0_1_n_n
/-- The leaf product's dimension numbers: leaf arrival probabilities against the leaf rows. -/
abbrev leafDims := dot_S1024x128_S128x1000_S1024x1000_1_0_0_1_n_n

theorem gateDims_lhs0 (i : S1024x127.Idx) (q : gateDims.contr.Idx) : (gateDims.lhsIdx i q 0).val = (i 0).val := by
  unfold DotDims.lhsIdx
  rw [dif_neg (show ¬(0 : Fin S1024x2048.rank) ∈ gateDims.lhsBatch by decide),
    dif_pos (show (0 : Fin S1024x2048.rank) ∈ gateDims.lhsNonContracting by decide)]
  rfl

theorem gateDims_rhs1 (i : S1024x127.Idx) (q : gateDims.contr.Idx) : (gateDims.rhsIdx i q 1).val = (i 1).val := by
  unfold DotDims.rhsIdx
  rw [dif_neg (show ¬(1 : Fin S2048x127.rank) ∈ gateDims.rhsBatch by decide),
    dif_pos (show (1 : Fin S2048x127.rank) ∈ gateDims.rhsNonContracting by decide)]
  rfl

/-- The gate product at `(p, n)`: the sum over the 2048 features of the products of the entries. -/
theorem gateDot_apply (A : FVec Ideal S1024x2048 .bf16) (B : FVec Ideal S2048x127 .bf16) (p : Fin 1024) (n : Fin 127) :
    matmul gateDims none A B (constant S1024x127 .f32 0x00000000#32) (ix2 p n) = ∑ f : Fin 2048, A (ix2 p f) * B (ix2 f n) := by
  refine (Ideal.matmul_constant_zero_apply gateDims none A B (ix2 p n)).trans ?_
  rw [← Equiv.sum_comp (contrEquiv1 gateDims 2048 rfl rfl).symm]
  refine Finset.sum_congr rfl fun f _ => ?_
  have hk := contrEquiv1_symm_val gateDims 2048 rfl rfl f
  have el : gateDims.lhsIdx (ix2 p n) ((contrEquiv1 gateDims 2048 rfl rfl).symm f) = ix2 p f := funext fun a => Fin.ext (by
    match a with
    | ⟨0, _⟩ => exact gateDims_lhs0 _ _
    | ⟨1, _⟩ => exact (gateDims.lhsIdx_val_of_single rfl _ _).trans hk)
  have er : gateDims.rhsIdx (ix2 p n) ((contrEquiv1 gateDims 2048 rfl rfl).symm f) = ix2 f n := funext fun a => Fin.ext (by
    match a with
    | ⟨0, _⟩ => exact (gateDims.rhsIdx_val_of_single rfl _ _).trans hk
    | ⟨1, _⟩ => exact gateDims_rhs1 _ _)
  rw [el, er]

theorem leafDims_lhs0 (i : S1024x1000.Idx) (q : leafDims.contr.Idx) : (leafDims.lhsIdx i q 0).val = (i 0).val := by
  unfold DotDims.lhsIdx
  rw [dif_neg (show ¬(0 : Fin S1024x128.rank) ∈ leafDims.lhsBatch by decide),
    dif_pos (show (0 : Fin S1024x128.rank) ∈ leafDims.lhsNonContracting by decide)]
  rfl

theorem leafDims_rhs1 (i : S1024x1000.Idx) (q : leafDims.contr.Idx) : (leafDims.rhsIdx i q 1).val = (i 1).val := by
  unfold DotDims.rhsIdx
  rw [dif_neg (show ¬(1 : Fin S128x1000.rank) ∈ leafDims.rhsBatch by decide),
    dif_pos (show (1 : Fin S128x1000.rank) ∈ leafDims.rhsNonContracting by decide)]
  rfl

/-- The leaf product at `(p, k)`: the sum over the 128 leaves of the products of the entries. -/
theorem leafDot_apply (A : FVec Ideal S1024x128 .bf16) (B : FVec Ideal S128x1000 .bf16) (p : Fin 1024) (k : Fin 1000) :
    matmul leafDims none A B (constant S1024x1000 .f32 0x00000000#32) (ix2 p k) = ∑ j : Fin 128, A (ix2 p j) * B (ix2 j k) := by
  refine (Ideal.matmul_constant_zero_apply leafDims none A B (ix2 p k)).trans ?_
  rw [← Equiv.sum_comp (contrEquiv1 leafDims 128 rfl rfl).symm]
  refine Finset.sum_congr rfl fun j _ => ?_
  have hk := contrEquiv1_symm_val leafDims 128 rfl rfl j
  have el : leafDims.lhsIdx (ix2 p k) ((contrEquiv1 leafDims 128 rfl rfl).symm j) = ix2 p j := funext fun a => Fin.ext (by
    match a with
    | ⟨0, _⟩ => exact leafDims_lhs0 _ _
    | ⟨1, _⟩ => exact (leafDims.lhsIdx_val_of_single rfl _ _).trans hk)
  have er : leafDims.rhsIdx (ix2 p k) ((contrEquiv1 leafDims 128 rfl rfl).symm j) = ix2 j k := funext fun a => Fin.ext (by
    match a with
    | ⟨0, _⟩ => exact (leafDims.rhsIdx_val_of_single rfl _ _).trans hk
    | ⟨1, _⟩ => exact leafDims_rhs1 _ _)
  rw [el, er]

/-! ## The gates -/

/-- Row `p`'s gates, from row `p` of the input block, the node weights and the one-row bias. -/
abbrev rowGates (x0 : Vec Ideal S1024x2048 .f32) (x1 : Vec Ideal S127x2048 .bf16) (x2 : Vec Ideal S1x127 .f32) (p : Fin 1024) : ℕ → EReal :=
  gateOf (fun f => x0 (ix2 p f)) (fun n f => x1 (ix2 n f)) (fun n => x2 (ix2 (0 : Fin 1) n))

/-- The gate array at `(p, n)` is node `n`'s gate for row `p`. -/
theorem gate_apply (x0 : Vec Ideal S1024x2048 .f32) (x1 : Vec Ideal S127x2048 .bf16) (x2 : Vec Ideal S1x127 .f32)
    (p : Fin 1024) (n : Fin 127) : k0_pay3 (F := Ideal) x0 x1 x2 (ix2 p n) = rowGates x0 x1 x2 p n.val := by
  unfold k0_pay3 rowGates gateOf
  rw [dif_pos n.isLt]
  dsimp only
  refine congrArg Ideal.logistic (congrArg (one * ·) (congrArg₂ (· + ·) ?_ ?_))
  · refine (gateDot_apply _ _ p n).trans (Finset.sum_congr rfl fun f _ => ?_)
    exact congrArg (x0 (ix2 p f) * ·) ((transpose_ix2_apply _ _ f n).trans (congrFun (shapeCast_self x1 _) _))
  · exact (broadcastTo_1b_ab_apply _ _ p n).trans (congrFun (shapeCast_self x2 _) _)

/-! ## The levels -/

/-- The first three levels: the 8 arrival probabilities of level 3. -/
theorem level3_apply (x0 : Vec Ideal S1024x2048 .f32) (x1 : Vec Ideal S127x2048 .bf16) (x2 : Vec Ideal S1x127 .f32)
    (p : Fin 1024) (i : Fin 8) :
    k0_pay4 (F := Ideal) x0 x1 x2 (ix2 p i)
      = step 3 (rowGates x0 x1 x2 p) (step 1 (rowGates x0 x1 x2 p) (step 0 (rowGates x0 x1 x2 p) (fun _ => one))) i.val := by
  unfold k0_pay4
  refine SoftTree.levelK_step (R := 1024) (n := 4) (n2 := 8) rfl 3 _ (k0_pay3 x0 x1 x2) _ _ _ _ _ (rowGates x0 x1 x2)
    (fun r => step 1 (rowGates x0 x1 x2 r) (step 0 (rowGates x0 x1 x2 r) (fun _ => one))) rfl (gate_apply x0 x1 x2)
    (fun r i => ?_) (by decide) p i
  refine SoftTree.levelK_step (R := 1024) (n := 2) (n2 := 4) rfl 1 _ (k0_pay3 x0 x1 x2) _ _ _ _ _ (rowGates x0 x1 x2)
    (fun r => step 0 (rowGates x0 x1 x2 r) (fun _ => one)) rfl (gate_apply x0 x1 x2)
    (fun r i => ?_) (by decide) r i
  exact SoftTree.levelK_step (R := 1024) (n := 1) (n2 := 2) rfl 0 _ (k0_pay3 x0 x1 x2) _ _ _ _ _ (rowGates x0 x1 x2)
    (fun _ _ => one) rfl (gate_apply x0 x1 x2) (fun _ _ => rfl) (by decide) r i

/-- The gate slice of level 3: columns 7 to 14 of the gate array. -/
theorem slice3_apply (x0 : Vec Ideal S1024x2048 .f32) (x1 : Vec Ideal S127x2048 .bf16) (x2 : Vec Ideal S1x127 .f32)
    (p : Fin 1024) (i : Fin 8) : k0_pay5 (F := Ideal) x0 x1 x2 (ix2 p i) = rowGates x0 x1 x2 p (7 + i.val) := by
  unfold k0_pay5
  exact (slice2_axis1_apply 7 _ _ p i ⟨7 + i.val, by omega⟩ rfl).trans (gate_apply x0 x1 x2 p _)

/-- The last four levels and the leaf product, over any gate array, level 3 and level-3 slice that are the row
    functions `q`, `f3`: entry `(p, k)` is the sum over the leaves of the leaf arrival probability times the leaf row's entry. -/
theorem leaves_apply (v6 : FVec Ideal S128x1000 .bf16) (v14 : FVec Ideal S1024x127 .f32) (v42 v43 : FVec Ideal S1024x8 .f32)
    (c : Ideal .f32) (q f3 : Fin 1024 → ℕ → EReal) (hone : c = one)
    (h14 : ∀ (r : Fin 1024) (n : Fin 127), v14 (ix2 r n) = q r n.val)
    (h42 : ∀ (r : Fin 1024) (i : Fin 8), v42 (ix2 r i) = f3 r i.val)
    (h43 : ∀ (r : Fin 1024) (i : Fin 8), v43 (ix2 r i) = q r (7 + i.val)) (p : Fin 1024) (k : Fin 1000) :
    k0_pay1 (F := Ideal) v6 v14 v42 v43 c (ix2 p k)
      = ∑ j : Fin 128, step 63 (q p) (step 31 (q p) (step 15 (q p) (step 7 (q p) (f3 p)))) j.val * v6 (ix2 j k) := by
  unfold k0_pay1
  refine (leafDot_apply _ v6 p k).trans (Finset.sum_congr rfl fun j _ => congrArg (· * v6 (ix2 j k)) ?_)
  rw [truncf_apply]
  refine SoftTree.levelK_step (R := 1024) (n := 64) (n2 := 128) rfl 63 _ v14 _ _ _ _ _ q
    (fun r => step 31 (q r) (step 15 (q r) (step 7 (q r) (f3 r)))) rfl h14 (fun r i => ?_) (by decide) p j
  refine SoftTree.levelK_step (R := 1024) (n := 32) (n2 := 64) rfl 31 _ v14 _ _ _ _ _ q
    (fun r => step 15 (q r) (step 7 (q r) (f3 r))) rfl h14 (fun r i => ?_) (by decide) r i
  refine SoftTree.levelK_step (R := 1024) (n := 16) (n2 := 32) rfl 15 _ v14 _ _ _ _ _ q
    (fun r => step 7 (q r) (f3 r)) rfl h14 (fun r i => ?_) (by decide) r i
  refine (SoftTree.levelK_apply (R := 1024) (n := 8) (n2 := 16) rfl c v43 v42 _ _ _ r i ⟨i.val / 2, by omega⟩ rfl).trans ?_
  rw [h43, h42, hone]
  rfl

/-! ## The stored block -/

/-- The stored block at `(p, k)`: the mix of column `k` of the leaf rows `x3` by row `p`'s leaf arrival probabilities,
    the gates from row `p` of the input block `x0`, the node weights `x1` and the one-row bias `x2`. -/
theorem payload_apply (x0 : Vec Ideal S1024x2048 .f32) (x1 : Vec Ideal S127x2048 .bf16) (x2 : Vec Ideal S1x127 .f32)
    (x3 : Vec Ideal S128x1000 .bf16) (p : Fin 1024) (k : Fin 1000) :
    k0_pay1 (F := Ideal) (k0_pay2 x3) (k0_pay3 x0 x1 x2) (k0_pay4 x0 x1 x2) (k0_pay5 x0 x1 x2) (Scalar.ofBits .f32 0x3F800000#32) (ix2 p k)
      = SoftTree.mix (fun f => x0 (ix2 p f)) (fun n f => x1 (ix2 n f)) (fun n => x2 (ix2 (0 : Fin 1) n)) (fun j => x3 (ix2 j k)) := by
  refine (leaves_apply (k0_pay2 x3) (k0_pay3 x0 x1 x2) (k0_pay4 x0 x1 x2) (k0_pay5 x0 x1 x2) _ (rowGates x0 x1 x2)
    (fun r => step 3 (rowGates x0 x1 x2 r) (step 1 (rowGates x0 x1 x2 r) (step 0 (rowGates x0 x1 x2 r) (fun _ => one))))
    rfl (gate_apply x0 x1 x2) (level3_apply x0 x1 x2) (slice3_apply x0 x1 x2) p k).trans ?_
  unfold SoftTree.mix SoftTree.leaf
  refine Finset.sum_congr rfl fun j _ => ?_
  unfold k0_pay2
  rw [shapeCast_self]

end Cert.KernelIdeal.TreeValue

end
-- ==== Proof.KernelValue.lean ====
/-
  From the blocks to the whole array: the tree's result array after the run is the specification's one function of
  the argument arrays.

  The launch cuts the 8192 input rows into eight blocks of 1024 rows; grid point `t` reads block `t` of the inputs,
  the whole node weights, the whole one-row bias and the whole leaf rows, and writes block `t` of the result. What a
  point writes is, entry by entry, the mix of a leaf column by the leaf arrival probabilities of one input row; read
  where the result's block sits in the array, that is block `t` of the specification. The eight blocks cover the
  array, so the array ends as the specification everywhere. Before the region the host has brought the node weights
  to the kernel's format (the identity on extended reals), the bias to one row, and the leaf parameters through the
  row softmax, carried here as one function and never opened.
-/
import proofs.«153887_j58325655879930_2_alg».proof.Proof.Gen.KernelIdeal.Value
import proofs.«153887_j58325655879930_2_alg».proof.Proof.KernelPayload
import proofs.«153887_j58325655879930_2_alg».proof.Proof.TreeSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.TreeValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the host prepared, as the region finds them -/

/-- The node weights: the argument, its change of format the identity on extended reals. -/
theorem weights_entry (c : Dev nD) :
    (V m c main_v1 : S127x2048.Idx → EReal) = (m ((c : Thread nD τ).loc main_arg1) : S127x2048.Idx → EReal) := by
  dsimp only [Gen.V, Gen.hostOps0]; after_results; rfl

/-- The bias: the argument laid out as one row. -/
theorem bias_entry (c : Dev nD) :
    (V m c main_v0 : S1x127.Idx → EReal)
      = shapeCast S1x127 (m ((c : Thread nD τ).loc main_arg2) : S127.Idx → EReal) shapeCasts_S127_S1x127 := by
  dsimp only [Gen.V, Gen.hostOps0]; after_results; rfl

/-- The leaf rows: the row softmax of the leaf parameters, its change of format the identity on extended reals. -/
theorem leaves_entry (c : Dev nD) :
    (V m c main_v13 : S128x1000.Idx → EReal)
      = SoftTree.dists (m ((c : Thread nD τ).loc main_arg3) : S128x1000.Idx → EReal) := by
  dsimp only [Gen.V, Gen.hostOps0]; after_results
  unfold SoftTree.dists SoftTree.expShift; rfl

/-! ## The launch's index maps, decided over the eight grid points -/

theorem zeroOffsets : (![0, 0] : Fin 2 → Nat) = fun _ => 0 := funext fun a => by fin_cases a <;> rfl

/-- The input rows move with the result's rows; the weights, the bias and the leaf rows are staged whole; the
    result's row block index stays below eight and its column block index is zero. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) = 0 :=
  (by decide +kernel : ∀ t : Fin grid0.N, _)

/-- Every one of the eight row blocks of the result is some point's. -/
theorem index_onto : ∀ q0 : Fin 8, ∃ t : Fin cfg0.N, win0_4.index t = ![q0.val, 0] :=
  (by decide +kernel : ∀ q0 : Fin 8, ∃ t : Fin grid0.N, win0_4.index t = ![q0.val, 0])

/-! ## Each staged block, read where it sits in its array -/

/-- Row `p` of a point's input block is row `index × 1024 + p` of the inputs. -/
theorem rows_block (c : Dev nD) (t : Fin cfg0.N) (p : Fin 1024) (f : Fin 2048) (r : Fin 8192)
    (hr : r.val = win0_4.index t (0 : Fin 2) * 1024 + p.val) :
    (iblk m c 0 t : Vec Ideal S1024x2048 .f32) (ix2 p f)
      = (m ((c : Thread nD τ).loc main_arg0) : S8192x2048.Idx → EReal) (ix2 r f) := by
  obtain ⟨e0, e1, -⟩ := index_facts t
  show V m c main_arg0 (((cfg0.win 0).blk t).view.emb (ix2 p f)) = _
  rw [V_main_arg0]
  refine congrArg (m ((c : Thread nD τ).loc main_arg0) : S8192x2048.Idx → EReal) ?_
  funext a; apply Fin.ext
  match a with
  | ⟨0, _⟩ => show win0_0.index t (0 : Fin 2) * 1024 + 1 * p.val = r.val; omega
  | ⟨1, _⟩ => show win0_0.index t (1 : Fin 2) * 2048 + 1 * f.val = f.val; omega

/-- The staged node weights are the argument's, entry by entry. -/
theorem weights_block (c : Dev nD) (t : Fin cfg0.N) (n : Fin 127) (f : Fin 2048) :
    (iblk m c 1 t : Vec Ideal S127x2048 .bf16) (ix2 n f)
      = (m ((c : Thread nD τ).loc main_arg1) : S127x2048.Idx → EReal) (ix2 n f) := by
  obtain ⟨-, -, e2, e3, -⟩ := index_facts t
  show V m c main_v1 (((cfg0.win 1).blk t).view.emb (ix2 n f)) = _
  refine (congrFun (weights_entry m c) _).trans ?_
  refine congrArg (m ((c : Thread nD τ).loc main_arg1) : S127x2048.Idx → EReal) ?_
  funext a; apply Fin.ext
  match a with
  | ⟨0, _⟩ => show win0_1.index t (0 : Fin 2) * 127 + 1 * n.val = n.val; omega
  | ⟨1, _⟩ => show win0_1.index t (1 : Fin 2) * 2048 + 1 * f.val = f.val; omega

/-- The staged one-row bias is the argument's, entry by entry. -/
theorem bias_block (c : Dev nD) (t : Fin cfg0.N) (u : Fin 1) (n : Fin 127) :
    (iblk m c 2 t : Vec Ideal S1x127 .f32) (ix2 u n)
      = (m ((c : Thread nD τ).loc main_arg2) : S127.Idx → EReal) (ix1 n) := by
  obtain ⟨-, -, -, -, e4, e5, -⟩ := index_facts t
  have hu : u.val = 0 := by omega
  show V m c main_v0 (((cfg0.win 2).blk t).view.emb (ix2 u n)) = _
  have e : ((cfg0.win 2).blk t).view.emb (ix2 u n) = (ix2 u n : S1x127.Idx) := by
    funext a; apply Fin.ext
    match a with
    | ⟨0, _⟩ => show win0_2.index t (0 : Fin 2) * 1 + 1 * u.val = u.val; omega
    | ⟨1, _⟩ => show win0_2.index t (1 : Fin 2) * 127 + 1 * n.val = n.val; omega
  rw [e]
  refine (congrFun (bias_entry m c) _).trans ?_
  exact shapeCast_a_1a_apply _ _ u n

/-- The staged leaf rows are the row softmax of the leaf parameters, entry by entry. -/
theorem leaves_block (c : Dev nD) (t : Fin cfg0.N) (j : Fin 128) (k : Fin 1000) :
    (iblk m c 3 t : Vec Ideal S128x1000 .bf16) (ix2 j k)
      = SoftTree.dists (m ((c : Thread nD τ).loc main_arg3) : S128x1000.Idx → EReal) (ix2 j k) := by
  obtain ⟨-, -, -, -, -, -, e6, e7, -⟩ := index_facts t
  show V m c main_v13 (((cfg0.win 3).blk t).view.emb (ix2 j k)) = _
  refine (congrFun (leaves_entry m c) _).trans ?_
  refine congrArg (SoftTree.dists (m ((c : Thread nD τ).loc main_arg3) : S128x1000.Idx → EReal)) ?_
  funext a; apply Fin.ext
  match a with
  | ⟨0, _⟩ => show win0_3.index t (0 : Fin 2) * 128 + 1 * j.val = j.val; omega
  | ⟨1, _⟩ => show win0_3.index t (1 : Fin 2) * 1000 + 1 * k.val = k.val; omega

/-! ## What a point writes is its block of the specification -/

/-- The stored block at any of its indices, from the payload at coordinates. -/
theorem block_entry (x0 : Vec Ideal S1024x2048 .f32) (x1 : Vec Ideal S127x2048 .bf16) (x2 : Vec Ideal S1x127 .f32)
    (x3 : Vec Ideal S128x1000 .bf16) (y : S1024x1000.Idx) :
    k0_pay1 (F := Ideal) (k0_pay2 x3) (k0_pay3 x0 x1 x2) (k0_pay4 x0 x1 x2) (k0_pay5 x0 x1 x2) (Scalar.ofBits .f32 0x3F800000#32) y
      = SoftTree.mix (fun f => x0 (ix2 (y 0) f)) (fun n f => x1 (ix2 n f)) (fun n => x2 (ix2 (0 : Fin 1) n)) (fun j => x3 (ix2 j (y 1))) := by
  obtain ⟨p, k, rfl⟩ : ∃ (p : Fin 1024) (k : Fin 1000), y = ix2 p k := ⟨y 0, y 1, eq_ix2 y⟩
  exact payload_apply x0 x1 x2 x3 p k

/-- The mix depends on its four arguments entry by entry. -/
theorem mix_congr {x x' : Fin 2048 → EReal} {w w' : Fin 127 → Fin 2048 → EReal} {b b' : Fin 127 → EReal}
    {d d' : Fin 128 → EReal} (hx : ∀ f, x f = x' f) (hw : ∀ n f, w n f = w' n f) (hb : ∀ n, b n = b' n)
    (hd : ∀ j, d j = d' j) : SoftTree.mix x w b d = SoftTree.mix x' w' b' d' := by
  obtain rfl : x = x' := funext hx
  obtain rfl : w = w' := funext fun n => funext (hw n)
  obtain rfl : b = b' := funext hb
  obtain rfl : d = d' := funext hd
  rfl

/-- What point `t` writes back is block `t` of the specification of the argument arrays. -/
theorem flushed_eq (c : Dev nD) (t : Fin cfg0.N) :
    (dats m 0 c).flushed 4 t = ((cfg0.win 4).blk t).view.read (Elt Ideal)
      (SoftTree.G (m ((c : Thread nD τ).loc main_arg0)) (m ((c : Thread nD τ).loc main_arg1))
        (m ((c : Thread nD τ).loc main_arg2)) (SoftTree.dists (m ((c : Thread nD τ).loc main_arg3)))) := by
  rw [Value.flushed4]
  unfold Gen.out0_4
  rw [View.canon_unit_zero zeroOffsets]
  simp only [View.ld_unit_zero (S := S1024x2048) zeroOffsets, View.ld_unit_zero (S := S127x2048) zeroOffsets,
    View.ld_unit_zero (S := S1x127) zeroOffsets, View.ld_unit_zero (S := S128x1000) zeroOffsets]
  obtain ⟨-, -, -, -, -, -, -, -, -, e9⟩ := index_facts t
  funext y
  show k0_pay1 (F := Ideal) (k0_pay2 (iblk m c 3 t)) (k0_pay3 (iblk m c 0 t) (iblk m c 1 t) (iblk m c 2 t))
      (k0_pay4 (iblk m c 0 t) (iblk m c 1 t) (iblk m c 2 t)) (k0_pay5 (iblk m c 0 t) (iblk m c 1 t) (iblk m c 2 t))
      (Scalar.ofBits .f32 0x3F800000#32) y
    = SoftTree.G (m ((c : Thread nD τ).loc main_arg0)) (m ((c : Thread nD τ).loc main_arg1))
        (m ((c : Thread nD τ).loc main_arg2)) (SoftTree.dists (m ((c : Thread nD τ).loc main_arg3)))
        (((cfg0.win 4).blk t).view.emb y)
  refine (block_entry (iblk m c 0 t) (iblk m c 1 t) (iblk m c 2 t) (iblk m c 3 t) y).trans ?_
  unfold SoftTree.G
  refine mix_congr (fun f => ?_) (fun n f => ?_) (fun n => ?_) (fun j => ?_)
  · exact rows_block m c t (y 0) f _ (by
      show win0_4.index t (0 : Fin 2) * 1024 + 1 * (y 0).val = _; omega)
  · exact weights_block m c t n f
  · exact bias_block m c t 0 n
  · refine (leaves_block m c t j (y 1)).trans ?_
    refine congrArg (SoftTree.dists (m ((c : Thread nD τ).loc main_arg3) : S128x1000.Idx → EReal)) ?_
    funext a; apply Fin.ext
    match a with
    | ⟨0, _⟩ => rfl
    | ⟨1, _⟩ => show (y 1).val = win0_4.index t (1 : Fin 2) * 1000 + 1 * (y 1).val; omega

/-! ## The eight blocks cover the array -/

/-- An index of the result is in point `t`'s block iff each coordinate is in the block's range on its axis. -/
theorem mem_block (t : Fin cfg0.N) (i : S8192x1000.Idx) :
    i ∈ ((cfg0.win 4).blk t).view.set ↔ ∀ a : Fin 2, win0_4.index t a * S1024x1000.size a ≤ (i a).val
      ∧ (i a).val < win0_4.index t a * S1024x1000.size a + S1024x1000.size a := by
  show i ∈ ((View.whole main_v14).slice (win0_4.rect t)).set ↔ _
  rw [View.set_slice_whole, Rect.mem_set_unit]
  exact Iff.rfl

/-- Row `r` of the result is in the block of the point whose row block index is `r / 1024`. -/
theorem covered (i : S8192x1000.Idx) :
    ∃ t : Fin cfg0.N, (cfg0.win 4).flush t = true ∧ i ∈ ((cfg0.win 4).blk t).view.set := by
  have hi0 : (i 0).val < 8192 := (i 0).isLt
  have hi1 : (i 1).val < 1000 := (i 1).isLt
  obtain ⟨t, ht⟩ := index_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1000 ≤ (i 1).val ∧ (i 1).val < win0_4.index t (1 : Fin 2) * 1000 + 1000; omega

/-- So the result array ends holding the specification of the argument arrays. -/
theorem final (c : Dev nD) : (dats m 0 c).arrAt 4 cfg0.N
    = SoftTree.G (m ((c : Thread nD τ).loc main_arg0)) (m ((c : Thread nD τ).loc main_arg1))
        (m ((c : Thread nD τ).loc main_arg2)) (SoftTree.dists (m ((c : Thread nD τ).loc main_arg3))) :=
  (dats m 0 c).arrAt_eq_of_cover 4 _ (fun t _ => flushed_eq m c t) covered

/-! ## The run, read -/

/-- Every run of the program ends with the result array at the specification of the argument arrays, the
    arguments unchanged. -/
theorem run : θ_run defs (onTc (τ := τ) (main (F := Ideal))) ⟨m, fun _ => 0, ρ⟩ fun r => ∀ c : Dev nD,
      r.2.mem ((c : Thread nD τ).loc main_v14) = SoftTree.G (m ((c : Thread nD τ).loc main_arg0)) (m ((c : Thread nD τ).loc main_arg1)) (m ((c : Thread nD τ).loc main_arg2)) (SoftTree.dists (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.TreeValue

end
-- ==== Proof.RefGates.lean ====
/-
  The reference's gate array, read at an index.

  The reference computes the 127 gate probabilities of all 8192 rows at once: the product of the inputs with the
  transposed node weights, plus the bias broadcast down the rows, times `1`, through `1 / (1 + exp (-·))`. Entry
  `(r, n)` of that array is the gate probability of node `n` for row `r` (`SoftTree.gateOf`), and a level's gates
  are a band of its columns starting at the level's heap offset.
-/
import proofs.«153887_j58325655879930_2_alg».proof.Proof.RefRun
import proofs.«153887_j58325655879930_2_alg».proof.Proof.TreeSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.Lib.StableHlo.Run

noncomputable section

namespace Cert.ReferenceIdeal.TreeValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-! ## The two products and the bias, at an index -/

/-- The gate scores' product at `(r, n)`: the sum over the 2048 features. -/
theorem dotGates_apply (X : FVec Ideal S8192x2048 .f32) (Y : FVec Ideal S2048x127 .f32) (r : Fin 8192) (n : Fin 127) :
    Host.dotGeneral dot_S8192x2048_S2048x127_S8192x127_1_0_0_1_n_n none X Y (ix2 r n)
      = ∑ f : Fin 2048, X (ix2 r f) * Y (ix2 f n) :=
  StackMember.dotGeneral_plain_apply (m := 8192) (k := 2048) (n := 127) none X Y r n

/-- The leaf mix's product at `(r, k)`: the sum over the 128 leaves. -/
theorem leafDot_apply (X : FVec Ideal S8192x128 .f32) (Y : FVec Ideal S128x1000 .f32) (r : Fin 8192) (k : Fin 1000) :
    Host.dotGeneral dot_S8192x128_S128x1000_S8192x1000_1_0_0_1_n_n none X Y (ix2 r k)
      = ∑ j : Fin 128, X (ix2 r j) * Y (ix2 j k) :=
  StackMember.dotGeneral_plain_apply (m := 8192) (k := 128) (n := 1000) none X Y r k

/-- The bias vector through its two broadcasts (`[127] → [1, 127] → [8192, 127]`) reads entry `n` at `(r, n)`. -/
theorem bias_apply (b : FVec Ideal S127 .f32) (r : Fin 8192) (n : Fin 127) :
    broadcastInDim S8192x127 ![0, 1] bcast_S1x127_S8192x127_0_1 (broadcastInDim S1x127 ![1] bcast_S127_S1x127_1 b) (ix2 r n) = b (ix1 n) := by
  refine (broadcastInDim_apply _ _ _ (ix2 r n) (ix2 (0 : Fin 1) n) fun a => ?_).trans
    (broadcastInDim_apply _ _ _ (ix2 (0 : Fin 1) n) (ix1 n) fun a => ?_)
  · match a with
    | ⟨0, _⟩ => rfl
    | ⟨1, _⟩ => rfl
  · match a with
    | ⟨0, _⟩ => rfl

/-! ## The gates -/

/-- The gate array's term over any argument arrays, at `(r, n)`: the logistic function of `1` times the row's score at
    node `n`. The three `1`s the reference broadcasts are the float word of `1.0`, which is the real number one; the
    one inside the logistic function's argument is kept as its word, as the specification spells it. -/
theorem gateTerm_apply (X : FVec Ideal S8192x2048 .f32) (W : FVec Ideal S127x2048 .f32) (b : FVec Ideal S127 .f32) (r : Fin 8192) (n : Fin 127) :
    Host.divf (F := Ideal) (broadcastInDim S8192x127 ![] bcast_S_S8192x127 (constant (F := Ideal) S_ .f32 0x3F800000#32)) (addf (broadcastInDim S8192x127 ![] bcast_S_S8192x127 (constant (F := Ideal) S_ .f32 0x3F800000#32)) (Host.exp (Host.negf (mulf (broadcastInDim S8192x127 ![] bcast_S_S8192x127 (constant (F := Ideal) S_ .f32 0x3F800000#32)) (addf (Host.dotGeneral dot_S8192x2048_S2048x127_S8192x127_1_0_0_1_n_n none X (transpose S2048x127 [1, 0] W transposes_S127x2048_S2048x127_1_0)) (broadcastInDim S8192x127 ![0, 1] bcast_S1x127_S8192x127_0_1 (broadcastInDim S1x127 ![1] bcast_S127_S1x127_1 b))))))) (ix2 r n)
    = Ideal.logistic (Ideal.ofBits .f32 0x3F800000#32 * ((∑ f : Fin 2048, X (ix2 r f) * W (ix2 n f)) + b (ix1 n))) := by
  have hd : Host.dotGeneral dot_S8192x2048_S2048x127_S8192x127_1_0_0_1_n_n none X (transpose S2048x127 [1, 0] W transposes_S127x2048_S2048x127_1_0) (ix2 r n)
      = ∑ f : Fin 2048, X (ix2 r f) * W (ix2 n f) :=
    (dotGates_apply X _ r n).trans (Finset.sum_congr rfl fun f _ => congrArg (X (ix2 r f) * ·) (transpose_ix2_apply W _ f n))
  have hb := bias_apply b r n
  show Ideal.div (Ideal.ofBits .f32 0x3F800000#32) (Ideal.ofBits .f32 0x3F800000#32 + Ideal.exp (-(Ideal.ofBits .f32 0x3F800000#32 *
      (Host.dotGeneral dot_S8192x2048_S2048x127_S8192x127_1_0_0_1_n_n none X (transpose S2048x127 [1, 0] W transposes_S127x2048_S2048x127_1_0) (ix2 r n)
        + broadcastInDim S8192x127 ![0, 1] bcast_S1x127_S8192x127_0_1 (broadcastInDim S1x127 ![1] bcast_S127_S1x127_1 b) (ix2 r n))))) = _
  rw [hd, hb]
  unfold Ideal.logistic
  rw [Ideal.ofBits_one_f32]

/-- Row `r`'s gate probabilities in heap order, from the launch contents of the three gate arguments. -/
def rowGates (V0 : Valuation τ sig (Elt Ideal)) (r : Fin 8192) : ℕ → EReal :=
  SoftTree.gateOf (fun f => V0 (Proc.devRef .tc main_arg0) (ix2 r f)) (fun n f => V0 (Proc.devRef .tc main_arg1) (ix2 n f))
    (fun n => V0 (Proc.devRef .tc main_arg2) (ix1 n))

/-- The reference's gate array at `(r, n)` is row `r`'s gate probability of node `n`. -/
theorem gate_apply (V0 : Valuation τ sig (Elt Ideal)) (r : Fin 8192) (n : Fin 127) :
    res_main_v12 V0 (ix2 r n) = rowGates V0 r n.val := by
  unfold res_main_v12 rowGates SoftTree.gateOf
  rw [dif_pos n.isLt]
  exact gateTerm_apply _ _ _ r n

/-- A band of `m` columns of the gate array from column `o`, at `(r, i)`: row `r`'s gate probability of node `o + i`. -/
theorem gateBand_apply (V0 : Valuation τ sig (Elt Ideal)) {m : ℕ} (o : ℕ) (hom : o + m ≤ 127)
    (h : (⟨2, ![8192, 127]⟩ : Shape).Slices ![0, o] ⟨2, ![8192, m]⟩) (r : Fin 8192) (i : Fin m) :
    extractStridedSlice ⟨2, ![8192, m]⟩ ![0, o] (res_main_v12 V0) h (ix2 r i) = rowGates V0 r (o + i.val) :=
  (slice2_axis1_apply o (res_main_v12 V0) h r i ⟨o + i.val, by have := i.isLt; omega⟩ rfl).trans (gate_apply V0 r _)

/-! ## The leaf rows -/

/-- The reference's leaf rows are the softmax of each row of the leaf parameters: the same chain of whole-array
    operations as `SoftTree.dists`, in the same order. -/
theorem dists_eq (V0 : Valuation τ sig (Elt Ideal)) :
    res_main_v87 V0 = SoftTree.dists (V0 (Proc.devRef .tc main_arg3)) := by
  unfold res_main_v87 res_main_v83 SoftTree.dists SoftTree.expShift
  rfl

end Cert.ReferenceIdeal.TreeValue

end
-- ==== Proof.RefLevels.lean ====
/-
  The reference's seven levels, read at an index.

  Level `l + 1` is built from level `l` (`[8192, 2^l]`) and the band of `2^l` gate columns at heap offset `2^l - 1`
  by the left-child and right-child products interleaved, which is `SoftTree.step` row by row. Level 0 is the
  root's `1` in every row. Seven levels, the last one the 128 leaf arrival probabilities.
-/
import proofs.«153887_j58325655879930_2_alg».proof.Proof.RefRun
import proofs.«153887_j58325655879930_2_alg».proof.Proof.TreeSpec
import proofs.«153887_j58325655879930_2_alg».proof.Proof.TreeLevel
import proofs.«153887_j58325655879930_2_alg».proof.Proof.RefGates
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.Lib.StableHlo.Run

noncomputable section

namespace Cert.ReferenceIdeal.TreeValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-- Level 1: the 2 arrival probabilities after 1 gate, row by row. -/
theorem level1_apply (V0 : Valuation τ sig (Elt Ideal)) (r : Fin 8192) (j : Fin 2) :
    res_main_v22 V0 (ix2 r j) = SoftTree.step 0 (rowGates V0 r) (fun _ => SoftTree.one) j.val := by
  unfold res_main_v22 res_main_v14
  exact SoftTree.levelR_step (R := 8192) (n := 1) (n2 := 2) rfl 0 (res_main_v12 V0) _ _ _ _ _ _ (rowGates V0)
    (fun _ _ => SoftTree.one) (gate_apply V0) (fun _ _ => rfl) (by decide) r j

/-- Level 2: the 4 arrival probabilities after 2 gates, row by row. -/
theorem level2_apply (V0 : Valuation τ sig (Elt Ideal)) (r : Fin 8192) (j : Fin 4) :
    res_main_v31 V0 (ix2 r j) = SoftTree.step 1 (rowGates V0 r) (SoftTree.step 0 (rowGates V0 r) (fun _ => SoftTree.one)) j.val := by
  unfold res_main_v31 res_main_v23
  exact SoftTree.levelR_step (R := 8192) (n := 2) (n2 := 4) rfl 1 (res_main_v12 V0) _ _ _ _ _ _ (rowGates V0)
    (fun r => SoftTree.step 0 (rowGates V0 r) (fun _ => SoftTree.one)) (gate_apply V0) (level1_apply V0) (by decide) r j

/-- Level 3: the 8 arrival probabilities after 3 gates, row by row. -/
theorem level3_apply (V0 : Valuation τ sig (Elt Ideal)) (r : Fin 8192) (j : Fin 8) :
    res_main_v40 V0 (ix2 r j) = SoftTree.step 3 (rowGates V0 r) (SoftTree.step 1 (rowGates V0 r) (SoftTree.step 0 (rowGates V0 r) (fun _ => SoftTree.one))) j.val := by
  unfold res_main_v40 res_main_v32
  exact SoftTree.levelR_step (R := 8192) (n := 4) (n2 := 8) rfl 3 (res_main_v12 V0) _ _ _ _ _ _ (rowGates V0)
    (fun r => SoftTree.step 1 (rowGates V0 r) (SoftTree.step 0 (rowGates V0 r) (fun _ => SoftTree.one))) (gate_apply V0) (level2_apply V0) (by decide) r j

/-- Level 4: the 16 arrival probabilities after 4 gates, row by row. -/
theorem level4_apply (V0 : Valuation τ sig (Elt Ideal)) (r : Fin 8192) (j : Fin 16) :
    res_main_v49 V0 (ix2 r j) = SoftTree.step 7 (rowGates V0 r) (SoftTree.step 3 (rowGates V0 r) (SoftTree.step 1 (rowGates V0 r) (SoftTree.step 0 (rowGates V0 r) (fun _ => SoftTree.one)))) j.val := by
  unfold res_main_v49 res_main_v41
  exact SoftTree.levelR_step (R := 8192) (n := 8) (n2 := 16) rfl 7 (res_main_v12 V0) _ _ _ _ _ _ (rowGates V0)
    (fun r => SoftTree.step 3 (rowGates V0 r) (SoftTree.step 1 (rowGates V0 r) (SoftTree.step 0 (rowGates V0 r) (fun _ => SoftTree.one)))) (gate_apply V0) (level3_apply V0) (by decide) r j

/-- Level 5: the 32 arrival probabilities after 5 gates, row by row. -/
theorem level5_apply (V0 : Valuation τ sig (Elt Ideal)) (r : Fin 8192) (j : Fin 32) :
    res_main_v58 V0 (ix2 r j) = SoftTree.step 15 (rowGates V0 r) (SoftTree.step 7 (rowGates V0 r) (SoftTree.step 3 (rowGates V0 r) (SoftTree.step 1 (rowGates V0 r) (SoftTree.step 0 (rowGates V0 r) (fun _ => SoftTree.one))))) j.val := by
  unfold res_main_v58 res_main_v50
  exact SoftTree.levelR_step (R := 8192) (n := 16) (n2 := 32) rfl 15 (res_main_v12 V0) _ _ _ _ _ _ (rowGates V0)
    (fun r => SoftTree.step 7 (rowGates V0 r) (SoftTree.step 3 (rowGates V0 r) (SoftTree.step 1 (rowGates V0 r) (SoftTree.step 0 (rowGates V0 r) (fun _ => SoftTree.one))))) (gate_apply V0) (level4_apply V0) (by decide) r j

/-- Level 6: the 64 arrival probabilities after 6 gates, row by row. -/
theorem level6_apply (V0 : Valuation τ sig (Elt Ideal)) (r : Fin 8192) (j : Fin 64) :
    res_main_v67 V0 (ix2 r j) = SoftTree.step 31 (rowGates V0 r) (SoftTree.step 15 (rowGates V0 r) (SoftTree.step 7 (rowGates V0 r) (SoftTree.step 3 (rowGates V0 r) (SoftTree.step 1 (rowGates V0 r) (SoftTree.step 0 (rowGates V0 r) (fun _ => SoftTree.one)))))) j.val := by
  unfold res_main_v67 res_main_v59
  exact SoftTree.levelR_step (R := 8192) (n := 32) (n2 := 64) rfl 31 (res_main_v12 V0) _ _ _ _ _ _ (rowGates V0)
    (fun r => SoftTree.step 15 (rowGates V0 r) (SoftTree.step 7 (rowGates V0 r) (SoftTree.step 3 (rowGates V0 r) (SoftTree.step 1 (rowGates V0 r) (SoftTree.step 0 (rowGates V0 r) (fun _ => SoftTree.one)))))) (gate_apply V0) (level5_apply V0) (by decide) r j

/-- Level 7: the 128 leaf arrival probabilities, row by row. -/
theorem leaves_apply (V0 : Valuation τ sig (Elt Ideal)) (r : Fin 8192) (j : Fin 128) :
    res_main_v76 V0 (ix2 r j) = SoftTree.leaf (rowGates V0 r) j.val := by
  unfold res_main_v76 res_main_v68 SoftTree.leaf
  exact SoftTree.levelR_step (R := 8192) (n := 64) (n2 := 128) rfl 63 (res_main_v12 V0) _ _ _ _ _ _ (rowGates V0)
    (fun r => SoftTree.step 31 (rowGates V0 r) (SoftTree.step 15 (rowGates V0 r) (SoftTree.step 7 (rowGates V0 r) (SoftTree.step 3 (rowGates V0 r) (SoftTree.step 1 (rowGates V0 r) (SoftTree.step 0 (rowGates V0 r) (fun _ => SoftTree.one))))))) (gate_apply V0) (level6_apply V0) (by decide) r j

end Cert.ReferenceIdeal.TreeValue

end
-- ==== Proof.RefValue.lean ====
/-
  The reference's result is the soft decision tree's specification function of the argument arrays.

  The run ends with the product of the leaf level (`[8192, 128]`, the leaf arrival probabilities of every row) with
  the leaf rows (`[128, 1000]`, the softmax of the leaf parameters). At `(r, k)` that is the sum over the 128 leaves
  of row `r`'s arrival probability at the leaf times the leaf row's entry `k`: `SoftTree.mix`, hence `SoftTree.G`.
-/
import proofs.«153887_j58325655879930_2_alg».proof.Proof.RefRun
import proofs.«153887_j58325655879930_2_alg».proof.Proof.TreeSpec
import proofs.«153887_j58325655879930_2_alg».proof.Proof.TreeLevel
import proofs.«153887_j58325655879930_2_alg».proof.Proof.RefGates
import proofs.«153887_j58325655879930_2_alg».proof.Proof.RefLevels
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.Lib.StableHlo.Run

noncomputable section

namespace Cert.ReferenceIdeal.TreeValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-- The run's result term is the specification function of the launch contents of the four arguments. -/
theorem result_eq (V0 : Valuation τ sig (Elt Ideal)) :
    Host.dotGeneral (φ₁ := .f32) (φ₂ := .f32) dot_S8192x128_S128x1000_S8192x1000_1_0_0_1_n_n none (res_main_v76 V0) (res_main_v87 V0)
      = SoftTree.G (V0 (Proc.devRef .tc main_arg0)) (V0 (Proc.devRef .tc main_arg1)) (V0 (Proc.devRef .tc main_arg2))
          (SoftTree.dists (V0 (Proc.devRef .tc main_arg3))) := by
  refine (congrArg (Host.dotGeneral (φ₁ := .f32) (φ₂ := .f32) dot_S8192x128_S128x1000_S8192x1000_1_0_0_1_n_n none (res_main_v76 V0)) (dists_eq V0)).trans ?_
  funext i
  obtain ⟨r, k, rfl⟩ : ∃ (r : Fin 8192) (k : Fin 1000), i = ix2 r k := ⟨i 0, i 1, eq_ix2 i⟩
  refine (leafDot_apply _ _ r k).trans ?_
  unfold SoftTree.G SoftTree.mix
  exact Finset.sum_congr rfl fun j _ => congrArg (· * SoftTree.dists (V0 (Proc.devRef .tc main_arg3)) (ix2 j k)) (leaves_apply V0 r j)

/-- On every device, from any memory with zero counters: every weakly fair execution of the reference terminates with
    its result the specification function of the argument arrays (the leaf rows the softmax of the leaf parameters),
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = SoftTree.G (m ((c.tc : Thread nD τ).loc main_arg0)) (m ((c.tc : Thread nD τ).loc main_arg1)) (m ((c.tc : Thread nD τ).loc main_arg2)) (SoftTree.dists (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq (launchContents m c)), (h c).2⟩)
    (Cert.ReferenceIdeal.RefRun.run (F := Ideal) m ρ)

end Cert.ReferenceIdeal.TreeValue

end
-- ==== Proof.lean ====
/-
  The soft decision tree kernel against its reference, on the extended reals.

  The kernel streams the input rows through a grid of eight blocks of 1024 rows; for each block it computes the
  127 gate probabilities of every row (one matrix product with the node weights, the bias, the logistic function),
  propagates arrival probabilities down the seven levels of the tree (a left child gets `(1 - gate) · parent`, a
  right child `gate · parent`), and mixes the 128 leaf rows by the leaf arrival probabilities (a second matrix
  product). The leaf rows are the row softmax of the leaf parameters, computed once before the grid by the same
  whole-array operations the reference uses. The reference does the same on all 8192 rows at once.

  Both results are the one function `SoftTree.G` of the argument arrays (Proof/TreeSpec.lean): entry `(r, k)` is
  `Σ_j leaf_j(gates of row r) · D(j, k)`. The kernel's array is `G` because each grid point writes the block of `G`
  under it and the eight blocks cover the array (Proof/KernelPayload.lean for the body's arithmetic at an index,
  Proof/KernelValue.lean for the blocks); the reference's is `G` by reading its operations at an index
  (Proof/RefValue.lean). No algebraic law is needed beyond `0 + x = x` for the matrix products' zero accumulators:
  the two programs perform the same operations in the same order on every entry, so the inputs' finiteness is never used.

  The three frames are the generated ones (the reference's is its run, read stretch by stretch in Proof/RefRun.lean, with the result dropped); the ideal
  pass rewrote nothing, so `preserves` is trivial.
-/
import proofs.«153887_j58325655879930_2_alg».proof.Defs
import proofs.«153887_j58325655879930_2_alg».proof.Proof.Gen.Kernel
import proofs.«153887_j58325655879930_2_alg».proof.Proof.Gen.Kernel.Frame
import proofs.«153887_j58325655879930_2_alg».proof.Proof.Gen.KernelIdeal
import proofs.«153887_j58325655879930_2_alg».proof.Proof.Gen.KernelIdeal.Frame
import proofs.«153887_j58325655879930_2_alg».proof.Proof.Gen.KernelIdeal.Value
import proofs.«153887_j58325655879930_2_alg».proof.Proof.Gen.ReferenceIdeal
import proofs.«153887_j58325655879930_2_alg».proof.Proof.RefRun
import proofs.«153887_j58325655879930_2_alg».proof.Proof.Gen.Pre_finite_inputs
import proofs.«153887_j58325655879930_2_alg».proof.Proof.KernelValue
import proofs.«153887_j58325655879930_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the result array at `SoftTree.G` of the
    arguments, the leaf rows the softmax of the leaf parameters. -/
theorem algebraic : Cert.algebraic_KernelIdeal_ReferenceIdeal := by
  intro m ρ m' ρ' _ hagree
  refine ⟨_, Cert.KernelIdeal.TreeValue.run m ρ, ?_⟩
  refine (θ_run Cert.ReferenceIdeal.defs _ _).mono (fun _ h c => ⟨(h c).1.trans ?_, (h c).2⟩)
    (Cert.ReferenceIdeal.TreeValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
